-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256x256 .f32) (main_arg8 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S8192x8192 .f32) (main_arg5 : FVec F S8192x8192 .f32) (main_arg6 : FVec F S256x256 .f32) (main_arg7 : FVec F S256x256 .f32) (main_arg8 : FVec F S256x256 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S8192x256 .f32) (main_arg1 : FVec F S8192x256 .f32) (main_arg2 : FVec F S8192x256 .f32) (main_arg3 : FVec F S8192x8192 .f32) (main_arg4 : FVec F S8192x8192 .f32) (main_arg5 : FVec F S8192x8192 .f32) (main_arg6 : FVec F S256x256 .f32) (main_arg7 : FVec F S256x256 .f32) (main_arg8 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S2048x256 : Shape := ⟨2, ![2048, 256]⟩
abbrev S512x256 : Shape := ⟨2, ![512, 256]⟩
abbrev S512x1024 : Shape := ⟨2, ![512, 1024]⟩
abbrev S512x1 : Shape := ⟨2, ![512, 1]⟩
abbrev S1024x256 : Shape := ⟨2, ![1024, 256]⟩
abbrev S512 : Shape := ⟨1, ![512]⟩

abbrev nBuf : Space → Nat
  | .hbm => 13
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S8192x256, .bf16⟩
  | .hbm, ⟨10, _⟩ => ⟨S8192x256, .bf16⟩
  | .hbm, ⟨11, _⟩ => ⟨S8192x256, .bf16⟩
  | .hbm, ⟨12, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S512x256, .bf16⟩
  | .local _ .vmem, ⟨16, _⟩ => ⟨S512x256, .bf16⟩
  | .local _ .vmem, ⟨17, _⟩ => ⟨S8192x256, .bf16⟩
  | .local _ .vmem, ⟨18, _⟩ => ⟨S8192x256, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x256, .f32⟩
  | .local _ .vmem, ⟨26, _⟩ => ⟨S512x256, .f32⟩
  | .local _ .vmem, ⟨27, _⟩ => ⟨S512x1, .f32⟩
  | .local _ .vmem, ⟨28, _⟩ => ⟨S512x1, .f32⟩
  | .local _ .vmem, ⟨29, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_26 : BitVec 32 := 0#32
  let v54 : BitVec 1 := Scalar.cmpi .ne v53 c0_i32_26
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S1024x256 : 0 < S1024x256.numel
  shapeCasts_S1024x256_S1024x256 : S1024x256.ShapeCasts S1024x256
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  broadcasts_S512x1_S512x256 : S512x1.Broadcasts S512x256
  dot_S2048x256_S256x256_S2048x256_1_0_0_1_n_n_wf : DotDims.WF S2048x256 S256x256 S2048x256 [1] [0] [0] [1] [] []
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S8192x256.size a
  hwx0_6 : ∀ i : grid0.Coords, EltTy.bits .bf16 = 32 ∨ (Rect.block (s := S8192x256) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S8192x256.size a
  hwx0_7 : ∀ i : grid0.Coords, EltTy.bits .bf16 = 32 ∨ (Rect.block (s := S8192x256) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S8192x256.size a
  hwx0_8 : ∀ i : grid0.Coords, EltTy.bits .bf16 = 32 ∨ (Rect.block (s := S8192x256) S2048x256.size (cc0_transform_8 i) (hinb0_8 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x8192.size a
  hwx1_3 : ∀ i : grid1.Coords, EltTy.bits .f32 = 32 ∨ (Rect.block (s := S8192x8192) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x8192.size a
  hwx1_4 : ∀ i : grid1.Coords, EltTy.bits .f32 = 32 ∨ (Rect.block (s := S8192x8192) S512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x8192.size a
  hwx1_5 : ∀ i : grid1.Coords, EltTy.bits .f32 = 32 ∨ (Rect.block (s := S8192x8192) S512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S8192x256.size a
  hwx1_6 : ∀ i : grid1.Coords, EltTy.bits .f32 = 32 ∨ (Rect.block (s := S8192x256) S512x256.size (cc1_transform_6 i) (hinb1_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S512x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x256_S8192x256_1_0_0_1_n_n_wf : DotDims.WF S8192x256 S256x256 S8192x256 [1] [0] [0] [1] [] []
  dot_S8192x256_S8192x256_S8192x8192_1_1_0_0_n_n_wf : DotDims.WF S8192x256 S8192x256 S8192x8192 [1] [1] [0] [0] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KI.Body0.lean ====
/-
  The projection kernel's body on whole staging buffers. One grid point loads a 2048-row block of each of the three
  summands and the three whole weight matrices, and stores into each of the three outputs the product of the block of
  the sum with one weight matrix: every output buffer ends as the canon of that single whole-rectangle store.
-/
import proofs.«137085_j64776696758780_2_alg».proof.Proof.Gen.KernelIdeal.Launch
import proofs.«137085_j64776696758780_2_alg».proof.Proof.Gen.KernelIdeal.Skeleton
import proofs.«137085_j64776696758780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a row block, and of a weight matrix. -/
abbrev rA : Rect S2048x256 := Rect.unit (s := S2048x256) ![0, 0] S2048x256.size inb_S2048x256_S2048x256_0_0
abbrev rW : Rect S256x256 := Rect.unit (s := S256x256) ![0, 0] S256x256.size inb_S256x256_S256x256_0_0

/-- The three outputs' buffers after the body, from the loaded blocks: (x0 + x1 + x2) times the weight. -/
def out0_6 (x0 x1 x2 : Vec F S2048x256 .f32) (x3 : Vec F S256x256 .f32) : Vec F S2048x256 .bf16 :=
  View.canon [⟨rA, k0_pay2 (View.ld x0 rA) (View.ld x1 rA) (View.ld x2 rA) (View.ld x3 rW)⟩]
def out0_7 (x0 x1 x2 : Vec F S2048x256 .f32) (x4 : Vec F S256x256 .f32) : Vec F S2048x256 .bf16 :=
  View.canon [⟨rA, k0_pay3 (View.ld x0 rA) (View.ld x1 rA) (View.ld x2 rA) (View.ld x4 rW)⟩]
def out0_8 (x0 x1 x2 : Vec F S2048x256 .f32) (x5 : Vec F S256x256 .f32) : Vec F S2048x256 .bf16 :=
  View.canon [⟨rA, k0_pay4 (View.ld x0 rA) (View.ld x1 rA) (View.ld x2 rA) (View.ld x5 rW)⟩]

/-- One whole-rectangle store covers the buffer. -/
theorem cover0 (p0 : Vec F S2048x256 .bf16) (y : S2048x256.Idx) :
    ∃ pc ∈ ([⟨rA, p0⟩] : List (View.Piece (Elt F) S2048x256 .bf16)), y ∈ pc.1.set :=
  View.cover_of_tiled [⟨rA, p0⟩] S2048x256.size (by rfl) y

set_option maxHeartbeats 4000000 in
/-- The body's triple: inputs at their read contents and kept, each output at anything before and at its canon after. -/
theorem sound_kernel0 (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S2048x256 .bf16) (harg7 : arg7.IsWhole) (arg8 : Memref sig .tc .vmem S2048x256 .bf16) (harg8 : arg8.IsWhole)
    (arg9 : Memref sig .tc .vmem S2048x256 .bf16) (harg9 : arg9.IsWhole)
    (x0 x1 x2 : Vec F S2048x256 .f32) (x3 x4 x5 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3) ∗ owns (c : Thread nD τ) arg8 fullShare (out0_7 x0 x1 x2 x4)
            ∗ owns (c : Thread nD τ) arg9 fullShare (out0_8 x0 x1 x2 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

end Cert.KernelIdeal.Hand

end
-- ==== Proof.KI.Data0.lean ====
/-
  The projection region's proof data at the contents V the region is entered with: after the body each input's staging
  buffer holds its block and each output's the product block; the invariant is the untouched scoped rest; nothing owed.
-/
import proofs.«137085_j64776696758780_2_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 4 t)
    | ⟨8, _⟩ => out0_8 (iblk0 V c 0 t) (iblk0 V c 1 t) (iblk0 V c 2 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Runs1.lean ====
/-
  The attention kernel's grid has 16 query tiles times 8 key tiles, the key tile the fast coordinate. The body resets its
  three carried buffers (running maximum, running denominator, running numerator) at a query tile's first key tile, and
  writes the output block at its last key tile. Here: the two conditions in closed form over the grid, where the output
  window is idle, and the memrefs the body is called with.
-/
import proofs.«137085_j64776696758780_2_alg».proof.Proof.Gen.KernelIdeal.Launch
import proofs.«137085_j64776696758780_2_alg».proof.Proof.Gen.KernelIdeal.Skeleton
import proofs.«137085_j64776696758780_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The key-tile coordinate is 0: the carried buffers are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The key-tile coordinate is 7: the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from a query tile's last key tile the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- The staging memrefs at a point, as the pipeline passes them. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .f32 := win1_6.stage (cfg1.slots t 6)
abbrev hs1_6 (t : Fin cfg1.N) : (ms1_6 t).IsWhole := hstage1_6 ((cfg1.slots t 6).cast nbuf1_6)
/-- The three carried buffers: running maximum, running denominator, running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2
abbrev VS1_0 : View sig .tc .vmem S512x1 .f32 := scM1_0.view
abbrev VS1_1 : View sig .tc .vmem S512x1 .f32 := scM1_1.view
abbrev VS1_2 : View sig .tc .vmem S512x256 .f32 := scM1_2.view
/-- One staging buffer of the output window, through which its contents are stated. -/
abbrev VO1_6 : View sig .tc .vmem S512x256 .f32 := (Memref.whole cc1_stg6_0 : Memref sig .tc .vmem S512x256 .f32).view

end Cert.KernelIdeal.Hand

end
-- ==== Proof.KI.Run1A.lean ====
/-
  The attention body run at a query tile's first key tile (the carried buffers reset first, whatever they held; the output block untouched): the pieces each carried buffer (and the output, where stored) ends with are the
  witness the symbolic run finds.
-/
import proofs.«137085_j64776696758780_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i)
    (x0 : Vec F S512x256 .bf16) (x1 x2 : Vec F S8192x256 .bf16) (x3 x4 x5 : Vec F S512x1024 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (xi6 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Run1B.lean ====
/-
  The attention body run at a middle key tile (the carried buffers at what the point before left; the output block untouched): the pieces each carried buffer (and the output, where stored) ends with are the
  witness the symbolic run finds.
-/
import proofs.«137085_j64776696758780_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i)
    (x0 : Vec F S512x256 .bf16) (x1 x2 : Vec F S8192x256 .bf16) (x3 x4 x5 : Vec F S512x1024 .f32) (xs0 xs1 : Vec F S512x1 .f32) (xs2 : Vec F S512x256 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (xi6 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Run1C.lean ====
/-
  The attention body run at a query tile's last key tile (the carried buffers at what the point before left; the output block stored): the pieces each carried buffer (and the output, where stored) ends with are the
  witness the symbolic run finds.
-/
import proofs.«137085_j64776696758780_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i)
    (x0 : Vec F S512x256 .bf16) (x1 x2 : Vec F S8192x256 .bf16) (x3 x4 x5 : Vec F S512x1024 .f32) (xs0 xs1 : Vec F S512x1 .f32) (xs2 : Vec F S512x256 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.Outs1.lean ====
/-
  What each case of the attention body leaves in the three carried buffers and, at a query tile's last key tile, in the
  output block: the pieces its run found, read back; each piece list tiles its buffer.
-/
import proofs.«137085_j64776696758780_2_alg».proof.Proof.KI.Run1A
import proofs.«137085_j64776696758780_2_alg».proof.Proof.KI.Run1B
import proofs.«137085_j64776696758780_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in carried buffer 0 tile it. -/
theorem scover1_A_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y
/-- What case A leaves in carried buffer 0: its pieces read back. -/
def sout1_A_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.1)
/-- The pieces case A leaves in carried buffer 1 tile it. -/
theorem scover1_A_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S512x1.size (by sl_kernel_rfl) y
/-- What case A leaves in carried buffer 1: its pieces read back. -/
def sout1_A_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)
/-- The pieces case A leaves in carried buffer 2 tile it. -/
theorem scover1_A_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S512x256.size (by sl_kernel_rfl) y
/-- What case A leaves in carried buffer 2: its pieces read back. -/
def sout1_A_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x256 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- The pieces case B leaves in carried buffer 0 tile it. -/
theorem scover1_B_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y
/-- What case B leaves in carried buffer 0: its pieces read back. -/
def sout1_B_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- The pieces case B leaves in carried buffer 1 tile it. -/
theorem scover1_B_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y
/-- What case B leaves in carried buffer 1: its pieces read back. -/
def sout1_B_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- The pieces case B leaves in carried buffer 2 tile it. -/
theorem scover1_B_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x256.size (by sl_kernel_rfl) y
/-- What case B leaves in carried buffer 2: its pieces read back. -/
def sout1_B_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- The pieces case C leaves in carried buffer 0 tile it. -/
theorem scover1_C_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y
/-- What case C leaves in carried buffer 0: its pieces read back. -/
def sout1_C_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- The pieces case C leaves in carried buffer 1 tile it. -/
theorem scover1_C_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y
/-- What case C leaves in carried buffer 1: its pieces read back. -/
def sout1_C_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- The pieces case C leaves in carried buffer 2 tile it. -/
theorem scover1_C_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x256.size (by sl_kernel_rfl) y
/-- What case C leaves in carried buffer 2: its pieces read back. -/
def sout1_C_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)
/-- The pieces the last key tile leaves in the output block tile it. -/
theorem cover1_C_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S512x256.size (by sl_kernel_rfl) y
/-- What the last key tile leaves in the output block. -/
def out1_C_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

end Cert.KernelIdeal.Hand

end
-- ==== Proof.KI.Data1.lean ====
/-
  The attention region's proof data at the contents V the region is entered with. What the output's staging buffer and
  the three carried buffers hold after each grid point is a recursion on the point: a query tile's first key tile resets
  the carried buffers and folds in the first tile, every later key tile folds its tile into what the point before left,
  and the last key tile also stores the output block. The invariant carries the three buffers at those contents.
-/
import proofs.«137085_j64776696758780_2_alg».proof.Proof.KI.Outs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class invariant with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output buffer's contents at a point where nothing is stored into it: never consulted. -/
def outIdle : Vec F S512x256 .f32 := VO1_6.read (Elt F) VO1_6.junk

/-- What the output's staging buffer and the three carried buffers hold after the body at position n. -/
def outsAt1 (c : Dev nD) : (n : ℕ) → n < cfg1.N → Vec F S512x256 .f32 × Vec F S512x1 .f32 × Vec F S512x1 .f32 × Vec F S512x256 .f32
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point; afterwards the scoped rest with the
    three carried buffers at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HE0, HE1, HE2, HE3, HE4, HE5, HE6, HE7, HE8, HE9, HE10, HE11, HE12, HE13, HE14, HS0, HS1, HS2⟩, Hg⟩
  isplitr [Hg]
  swap; · iexact Hg
  isplitl [HE0]; · iexact HE0
  isplitl [HE1]; · iexact HE1
  isplitl [HE2]; · iexact HE2
  isplitl [HE3]; · iexact HE3
  isplitl [HE4]; · iexact HE4
  isplitl [HE5]; · iexact HE5
  isplitl [HE6]; · iexact HE6
  isplitl [HE7]; · iexact HE7
  isplitl [HE8]; · iexact HE8
  isplitl [HE9]; · iexact HE9
  isplitl [HE10]; · iexact HE10
  isplitl [HE11]; · iexact HE11
  isplitl [HE12]; · iexact HE12
  isplitl [HE13]; · iexact HE13
  isplitl [HE14]; · iexact HE14
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.KI.Run.lean ====
/-
  The whole program as two regions one after the other. The buffer contents at the boundaries are a fold from the launch
  memory: after the projection region its three outputs hold what its write-backs leave, after the attention region the
  result holds what its write-backs leave, and nothing else moves. Every weakly fair execution terminates with the result
  buffer at that last fold and every argument as launched.
-/
import proofs.«137085_j64776696758780_2_alg».proof.Proof.KI.Data0
import proofs.«137085_j64776696758780_2_alg».proof.Proof.KI.Data1
import proofs.«137085_j64776696758780_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the projection region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! The arguments end as launched: the projection region stages six of them as inputs, the attention region the other three. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl
theorem W4_main_arg6 (c : Dev nD) : W4 m c (Proc.devRef .tc main_arg6) = m ((c : Thread nD τ).loc main_arg6) :=
  calc W4 m c (Proc.devRef .tc main_arg6)
    _ = W2 m c (Proc.devRef .tc main_arg6) := W4_of_ne m c main_arg6 (by decide)
    _ = W0 m c (Proc.devRef .tc main_arg6) := (W2_arr m c 3).trans (((dat0 (V1 m) c).arrAt_in 3 rfl _).trans (A_eq0 (V1 m) c 3))
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W2 m c (Proc.devRef .tc main_arg7) := W4_of_ne m c main_arg7 (by decide)
    _ = W0 m c (Proc.devRef .tc main_arg7) := (W2_arr m c 4).trans (((dat0 (V1 m) c).arrAt_in 4 rfl _).trans (A_eq0 (V1 m) c 4))
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W2 m c (Proc.devRef .tc main_arg8) := W4_of_ne m c main_arg8 (by decide)
    _ = W0 m c (Proc.devRef .tc main_arg8) := (W2_arr m c 5).trans (((dat0 (V1 m) c).arrAt_in 5 rfl _).trans (A_eq0 (V1 m) c 5))
    _ = m ((c : Thread nD τ).loc main_arg8) := rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := (W4_arr m c 3).trans (((dat1 (V2 m) c).arrAt_in 3 rfl _).trans (A_eq1 (V2 m) c 3))
    _ = W0 m c (Proc.devRef .tc main_arg4) := W2_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W2 m c (Proc.devRef .tc main_arg5) := (W4_arr m c 4).trans (((dat1 (V2 m) c).arrAt_in 4 rfl _).trans (A_eq1 (V2 m) c 4))
    _ = W0 m c (Proc.devRef .tc main_arg5) := W2_of_ne m c main_arg5 (by decide)
    _ = m ((c : Thread nD τ).loc main_arg5) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := (W4_arr m c 5).trans (((dat1 (V2 m) c).arrAt_in 5 rfl _).trans (A_eq1 (V2 m) c 5))
    _ = W0 m c (Proc.devRef .tc main_arg3) := W2_of_ne m c main_arg3 (by decide)
    _ = m ((c : Thread nD τ).loc main_arg3) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: every weakly fair execution terminates, the result buffer at the last fold, every argument as launched. -/
theorem run_full : θ_run defs (onTc (τ := τ) (main (F := F))) ⟨m, fun _ => 0, ρ⟩ (fun r => ∀ c : Dev nD,
      r.2.mem ((c.tc : Thread nD τ).loc main_v1) = W4 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v1 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c)⟩)

end Cert.KernelIdeal.Hand

end
-- ==== Proof.KB.Body0.lean ====
/-
  The projection kernel's body on whole staging buffers. One grid point loads a 2048-row block of each of the three
  summands and the three whole weight matrices, and stores into each of the three outputs the product of the block of
  the sum with one weight matrix: every output buffer ends as the canon of that single whole-rectangle store.
-/
import proofs.«137085_j64776696758780_2_alg».proof.Proof.Gen.Kernel.Launch
import proofs.«137085_j64776696758780_2_alg».proof.Proof.Gen.Kernel.Skeleton
import proofs.«137085_j64776696758780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a row block, and of a weight matrix. -/
abbrev rA : Rect S2048x256 := Rect.unit (s := S2048x256) ![0, 0] S2048x256.size inb_S2048x256_S2048x256_0_0
abbrev rW : Rect S256x256 := Rect.unit (s := S256x256) ![0, 0] S256x256.size inb_S256x256_S256x256_0_0

/-- The three outputs' buffers after the body, from the loaded blocks: (x0 + x1 + x2) times the weight. -/
def out0_6 (x0 x1 x2 : Vec F S2048x256 .f32) (x3 : Vec F S256x256 .f32) : Vec F S2048x256 .bf16 :=
  View.canon [⟨rA, k0_pay2 (View.ld x0 rA) (View.ld x1 rA) (View.ld x2 rA) (View.ld x3 rW)⟩]
def out0_7 (x0 x1 x2 : Vec F S2048x256 .f32) (x4 : Vec F S256x256 .f32) : Vec F S2048x256 .bf16 :=
  View.canon [⟨rA, k0_pay3 (View.ld x0 rA) (View.ld x1 rA) (View.ld x2 rA) (View.ld x4 rW)⟩]
def out0_8 (x0 x1 x2 : Vec F S2048x256 .f32) (x5 : Vec F S256x256 .f32) : Vec F S2048x256 .bf16 :=
  View.canon [⟨rA, k0_pay4 (View.ld x0 rA) (View.ld x1 rA) (View.ld x2 rA) (View.ld x5 rW)⟩]

/-- One whole-rectangle store covers the buffer. -/
theorem cover0 (p0 : Vec F S2048x256 .bf16) (y : S2048x256.Idx) :
    ∃ pc ∈ ([⟨rA, p0⟩] : List (View.Piece (Elt F) S2048x256 .bf16)), y ∈ pc.1.set :=
  View.cover_of_tiled [⟨rA, p0⟩] S2048x256.size (by rfl) y

set_option maxHeartbeats 4000000 in
/-- The body's triple: inputs at their read contents and kept, each output at anything before and at its canon after. -/
theorem sound_kernel0 (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S2048x256 .bf16) (harg7 : arg7.IsWhole) (arg8 : Memref sig .tc .vmem S2048x256 .bf16) (harg8 : arg8.IsWhole)
    (arg9 : Memref sig .tc .vmem S2048x256 .bf16) (harg9 : arg9.IsWhole)
    (x0 x1 x2 : Vec F S2048x256 .f32) (x3 x4 x5 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3) ∗ owns (c : Thread nD τ) arg8 fullShare (out0_7 x0 x1 x2 x4)
            ∗ owns (c : Thread nD τ) arg9 fullShare (out0_8 x0 x1 x2 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

end Cert.Kernel.Hand

end
-- ==== Proof.KB.Data0.lean ====
/-
  The projection region's proof data at the contents V the region is entered with: after the body each input's staging
  buffer holds its block and each output's the product block; the invariant is the untouched scoped rest; nothing owed.
-/
import proofs.«137085_j64776696758780_2_alg».proof.Proof.KB.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 4 t)
    | ⟨8, _⟩ => out0_8 (iblk0 V c 0 t) (iblk0 V c 1 t) (iblk0 V c 2 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.Runs1.lean ====
/-
  The attention kernel's grid has 16 query tiles times 8 key tiles, the key tile the fast coordinate. The body resets its
  three carried buffers (running maximum, running denominator, running numerator) at a query tile's first key tile, and
  writes the output block at its last key tile. Here: the two conditions in closed form over the grid, where the output
  window is idle, and the memrefs the body is called with.
-/
import proofs.«137085_j64776696758780_2_alg».proof.Proof.Gen.Kernel.Launch
import proofs.«137085_j64776696758780_2_alg».proof.Proof.Gen.Kernel.Skeleton
import proofs.«137085_j64776696758780_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The key-tile coordinate is 0: the carried buffers are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The key-tile coordinate is 7: the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from a query tile's last key tile the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- The staging memrefs at a point, as the pipeline passes them. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .f32 := win1_6.stage (cfg1.slots t 6)
abbrev hs1_6 (t : Fin cfg1.N) : (ms1_6 t).IsWhole := hstage1_6 ((cfg1.slots t 6).cast nbuf1_6)
/-- The three carried buffers: running maximum, running denominator, running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2
abbrev VS1_0 : View sig .tc .vmem S512x1 .f32 := scM1_0.view
abbrev VS1_1 : View sig .tc .vmem S512x1 .f32 := scM1_1.view
abbrev VS1_2 : View sig .tc .vmem S512x256 .f32 := scM1_2.view
/-- One staging buffer of the output window, through which its contents are stated. -/
abbrev VO1_6 : View sig .tc .vmem S512x256 .f32 := (Memref.whole cc1_stg6_0 : Memref sig .tc .vmem S512x256 .f32).view

end Cert.Kernel.Hand

end
-- ==== Proof.KB.Run1A.lean ====
/-
  The attention body run at a query tile's first key tile (the carried buffers reset first, whatever they held; the output block untouched): the pieces each carried buffer (and the output, where stored) ends with are the
  witness the symbolic run finds.
-/
import proofs.«137085_j64776696758780_2_alg».proof.Proof.KB.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i)
    (x0 : Vec F S512x256 .bf16) (x1 x2 : Vec F S8192x256 .bf16) (x3 x4 x5 : Vec F S512x1024 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (xi6 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.KB.Run1B.lean ====
/-
  The attention body run at a middle key tile (the carried buffers at what the point before left; the output block untouched): the pieces each carried buffer (and the output, where stored) ends with are the
  witness the symbolic run finds.
-/
import proofs.«137085_j64776696758780_2_alg».proof.Proof.KB.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i)
    (x0 : Vec F S512x256 .bf16) (x1 x2 : Vec F S8192x256 .bf16) (x3 x4 x5 : Vec F S512x1024 .f32) (xs0 xs1 : Vec F S512x1 .f32) (xs2 : Vec F S512x256 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (xi6 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.KB.Run1C.lean ====
/-
  The attention body run at a query tile's last key tile (the carried buffers at what the point before left; the output block stored): the pieces each carried buffer (and the output, where stored) ends with are the
  witness the symbolic run finds.
-/
import proofs.«137085_j64776696758780_2_alg».proof.Proof.KB.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i)
    (x0 : Vec F S512x256 .bf16) (x1 x2 : Vec F S8192x256 .bf16) (x3 x4 x5 : Vec F S512x1024 .f32) (xs0 xs1 : Vec F S512x1 .f32) (xs2 : Vec F S512x256 .f32) :
    Σ' (L6 : List (View.Piece (Elt F) S512x256 .f32)) (LS0 : List (View.Piece (Elt F) S512x1 .f32)) (LS1 : List (View.Piece (Elt F) S512x1 .f32)), { LS2 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.KB.Outs1.lean ====
/-
  What each case of the attention body leaves in the three carried buffers and, at a query tile's last key tile, in the
  output block: the pieces its run found, read back; each piece list tiles its buffer.
-/
import proofs.«137085_j64776696758780_2_alg».proof.Proof.KB.Run1A
import proofs.«137085_j64776696758780_2_alg».proof.Proof.KB.Run1B
import proofs.«137085_j64776696758780_2_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in carried buffer 0 tile it. -/
theorem scover1_A_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y
/-- What case A leaves in carried buffer 0: its pieces read back. -/
def sout1_A_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.1)
/-- The pieces case A leaves in carried buffer 1 tile it. -/
theorem scover1_A_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S512x1.size (by sl_kernel_rfl) y
/-- What case A leaves in carried buffer 1: its pieces read back. -/
def sout1_A_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)
/-- The pieces case A leaves in carried buffer 2 tile it. -/
theorem scover1_A_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) (y : S512x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S512x256.size (by sl_kernel_rfl) y
/-- What case A leaves in carried buffer 2: its pieces read back. -/
def sout1_A_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) : Vec F S512x256 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- The pieces case B leaves in carried buffer 0 tile it. -/
theorem scover1_B_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y
/-- What case B leaves in carried buffer 0: its pieces read back. -/
def sout1_B_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- The pieces case B leaves in carried buffer 1 tile it. -/
theorem scover1_B_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y
/-- What case B leaves in carried buffer 1: its pieces read back. -/
def sout1_B_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- The pieces case B leaves in carried buffer 2 tile it. -/
theorem scover1_B_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x256.size (by sl_kernel_rfl) y
/-- What case B leaves in carried buffer 2: its pieces read back. -/
def sout1_B_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- The pieces case C leaves in carried buffer 0 tile it. -/
theorem scover1_C_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y
/-- What case C leaves in carried buffer 0: its pieces read back. -/
def sout1_C_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- The pieces case C leaves in carried buffer 1 tile it. -/
theorem scover1_C_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y
/-- What case C leaves in carried buffer 1: its pieces read back. -/
def sout1_C_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- The pieces case C leaves in carried buffer 2 tile it. -/
theorem scover1_C_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x256.size (by sl_kernel_rfl) y
/-- What case C leaves in carried buffer 2: its pieces read back. -/
def sout1_C_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)
/-- The pieces the last key tile leaves in the output block tile it. -/
theorem cover1_C_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S512x256.size (by sl_kernel_rfl) y
/-- What the last key tile leaves in the output block. -/
def out1_C_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) : Vec F S512x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

end Cert.Kernel.Hand

end
-- ==== Proof.KB.Data1.lean ====
/-
  The attention region's proof data at the contents V the region is entered with. What the output's staging buffer and
  the three carried buffers hold after each grid point is a recursion on the point: a query tile's first key tile resets
  the carried buffers and folds in the first tile, every later key tile folds its tile into what the point before left,
  and the last key tile also stores the output block. The invariant carries the three buffers at those contents.
-/
import proofs.«137085_j64776696758780_2_alg».proof.Proof.KB.Outs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class invariant with the three carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output buffer's contents at a point where nothing is stored into it: never consulted. -/
def outIdle : Vec F S512x256 .f32 := VO1_6.read (Elt F) VO1_6.junk

/-- What the output's staging buffer and the three carried buffers hold after the body at position n. -/
def outsAt1 (c : Dev nD) : (n : ℕ) → n < cfg1.N → Vec F S512x256 .f32 × Vec F S512x1 .f32 × Vec F S512x1 .f32 × Vec F S512x256 .f32
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point; afterwards the scoped rest with the
    three carried buffers at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HE0, HE1, HE2, HE3, HE4, HE5, HE6, HE7, HE8, HE9, HE10, HE11, HE12, HE13, HE14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HE0 HE1 HE2 HE3 HE4 HE5 HE6 HE7 HE8 HE9 HE10 HE11 HE12 HE13 HE14 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HE5]; · iexact HE5
          isplitl [HE6]; · iexact HE6
          isplitl [HE7]; · iexact HE7
          isplitl [HE8]; · iexact HE8
          isplitl [HE9]; · iexact HE9
          isplitl [HE10]; · iexact HE10
          isplitl [HE11]; · iexact HE11
          isplitl [HE12]; · iexact HE12
          isplitl [HE13]; · iexact HE13
          isplitl [HE14]; · iexact HE14
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HE0, HE1, HE2, HE3, HE4, HE5, HE6, HE7, HE8, HE9, HE10, HE11, HE12, HE13, HE14, HS0, HS1, HS2⟩, Hg⟩
  isplitr [Hg]
  swap; · iexact Hg
  isplitl [HE0]; · iexact HE0
  isplitl [HE1]; · iexact HE1
  isplitl [HE2]; · iexact HE2
  isplitl [HE3]; · iexact HE3
  isplitl [HE4]; · iexact HE4
  isplitl [HE5]; · iexact HE5
  isplitl [HE6]; · iexact HE6
  isplitl [HE7]; · iexact HE7
  isplitl [HE8]; · iexact HE8
  isplitl [HE9]; · iexact HE9
  isplitl [HE10]; · iexact HE10
  isplitl [HE11]; · iexact HE11
  isplitl [HE12]; · iexact HE12
  isplitl [HE13]; · iexact HE13
  isplitl [HE14]; · iexact HE14
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.KB.Run.lean ====
/-
  The whole program as two regions one after the other. The buffer contents at the boundaries are a fold from the launch
  memory: after the projection region its three outputs hold what its write-backs leave, after the attention region the
  result holds what its write-backs leave, and nothing else moves. Every weakly fair execution terminates with the result
  buffer at that last fold and every argument as launched.
-/
import proofs.«137085_j64776696758780_2_alg».proof.Proof.KB.Data0
import proofs.«137085_j64776696758780_2_alg».proof.Proof.KB.Data1
import proofs.«137085_j64776696758780_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the projection region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! The arguments end as launched: the projection region stages six of them as inputs, the attention region the other three. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl
theorem W4_main_arg6 (c : Dev nD) : W4 m c (Proc.devRef .tc main_arg6) = m ((c : Thread nD τ).loc main_arg6) :=
  calc W4 m c (Proc.devRef .tc main_arg6)
    _ = W2 m c (Proc.devRef .tc main_arg6) := W4_of_ne m c main_arg6 (by decide)
    _ = W0 m c (Proc.devRef .tc main_arg6) := (W2_arr m c 3).trans (((dat0 (V1 m) c).arrAt_in 3 rfl _).trans (A_eq0 (V1 m) c 3))
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W2 m c (Proc.devRef .tc main_arg7) := W4_of_ne m c main_arg7 (by decide)
    _ = W0 m c (Proc.devRef .tc main_arg7) := (W2_arr m c 4).trans (((dat0 (V1 m) c).arrAt_in 4 rfl _).trans (A_eq0 (V1 m) c 4))
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W2 m c (Proc.devRef .tc main_arg8) := W4_of_ne m c main_arg8 (by decide)
    _ = W0 m c (Proc.devRef .tc main_arg8) := (W2_arr m c 5).trans (((dat0 (V1 m) c).arrAt_in 5 rfl _).trans (A_eq0 (V1 m) c 5))
    _ = m ((c : Thread nD τ).loc main_arg8) := rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := (W4_arr m c 3).trans (((dat1 (V2 m) c).arrAt_in 3 rfl _).trans (A_eq1 (V2 m) c 3))
    _ = W0 m c (Proc.devRef .tc main_arg4) := W2_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W2 m c (Proc.devRef .tc main_arg5) := (W4_arr m c 4).trans (((dat1 (V2 m) c).arrAt_in 4 rfl _).trans (A_eq1 (V2 m) c 4))
    _ = W0 m c (Proc.devRef .tc main_arg5) := W2_of_ne m c main_arg5 (by decide)
    _ = m ((c : Thread nD τ).loc main_arg5) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := (W4_arr m c 5).trans (((dat1 (V2 m) c).arrAt_in 5 rfl _).trans (A_eq1 (V2 m) c 5))
    _ = W0 m c (Proc.devRef .tc main_arg3) := W2_of_ne m c main_arg3 (by decide)
    _ = m ((c : Thread nD τ).loc main_arg3) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: every weakly fair execution terminates, the result buffer at the last fold, every argument as launched. -/
theorem run_full : θ_run defs (onTc (τ := τ) (main (F := F))) ⟨m, fun _ => 0, ρ⟩ (fun r => ∀ c : Dev nD,
      r.2.mem ((c.tc : Thread nD τ).loc main_v1) = W4 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v1 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c)⟩)

end Cert.Kernel.Hand

end
-- ==== Proof.Spec.lean ====
/-
  The specification of the certificate: single-head attention with three additive score biases, written index by
  index over the extended reals.

  The nine argument arrays are functions on literal index sets: three of extent 8192 × 256 (the node features and the
  two feature biases), three of extent 8192 × 8192 (the pairwise score biases) and three of extent 256 × 256 (the
  projection weights). The result at (n, e) is

      ∑ m, ( exp (s n m − M n) / ∑ m', exp (s n m' − M n) ) · V m e

  where  xc = (x + phi_degree) + phi_3d_sum,  Q = xc·Wq,  K = xc·Wk,  V = xc·Wv,
         s n m = (((∑ e, Q n e · K m e) · c + phi_spd n m) + phi_edge n m) + phi_3d n m,   c the f32 word of 1/16,
         M n = max over m of s n m.

  Every stage is a curried function of coordinates of literal extent, so that another derivation of the same value can
  be stated against the stages one at a time. The float words (the scale, the −∞ a maximum starts from, the 0 a sum
  starts from) are kept as words: the same word on two sides is never evaluated; the two neutral words are evaluated
  once, below.
-/
import Idealize.ShloMosaic.PureOps.Ideal
import Idealize.ShloMosaic.Lib.ValueIdx
import Mathlib

noncomputable section

namespace Cert.Spec

open Idealize.ShloMosaic Idealize.ShloMosaic.ValueIdx
open scoped BigOperators

/-- The index set of an 8192 × 256 array. -/
abbrev Ind : Type := (⟨2, ![8192, 256]⟩ : Shape).Idx
/-- The index set of an 8192 × 8192 array. -/
abbrev Inn : Type := (⟨2, ![8192, 8192]⟩ : Shape).Idx
/-- The index set of a 256 × 256 array. -/
abbrev Idd : Type := (⟨2, ![256, 256]⟩ : Shape).Idx

/-! ## The two neutral words -/

/-- The f32 word of −∞ is the bottom of the extended reals. -/
theorem ofBits_negInf : Ideal.ofBits .f32 0xFF800000#32 = (⊥ : EReal) := by
  simp [Ideal.ofBits, Ideal.ieee]

/-- The f32 word of +0 is the extended real 0. -/
theorem ofBits_zero : Ideal.ofBits .f32 0x00000000#32 = (0 : EReal) := by
  simp [Ideal.ofBits, Ideal.ieee]

/-! ## The stages -/

/-- The biased features: (x + phi_degree) + phi_3d_sum, in this association. -/
def xc (x pd p3 : Ind → EReal) (n : Fin 8192) (d : Fin 256) : EReal :=
  x (ix2 n d) + pd (ix2 n d) + p3 (ix2 n d)

/-- A projection: row n of the features against column e of a weight matrix. -/
def proj (f : Fin 8192 → Fin 256 → EReal) (W : Idd → EReal) (n : Fin 8192) (e : Fin 256) : EReal :=
  ∑ d : Fin 256, f n d * W (ix2 d e)

/-- The score of the pair (n, m): the inner product of query n and key m, scaled by the word of 1/16, plus the three
    pairwise biases added in the order phi_spd, phi_edge, phi_3d. -/
def score (Q K : Fin 8192 → Fin 256 → EReal) (spd edge p3d : Inn → EReal) (n m : Fin 8192) : EReal :=
  (((∑ e : Fin 256, Q n e * K m e) * Ideal.ofBits .f32 0x3D800000#32 + spd (ix2 n m)) + edge (ix2 n m)) + p3d (ix2 n m)

/-- The maximum of row n of the scores: the fold of max from the word of −∞, then once more against that word. -/
def rowMax (s : Fin 8192 → Fin 8192 → EReal) (n : Fin 8192) : EReal :=
  max (Ideal.ofBits .f32 0xFF800000#32)
    ((Finset.univ : Finset (Fin 8192)).fold max (Ideal.ofBits .f32 0xFF800000#32) (s n))

/-- The exponential of a score less its row's maximum. -/
def ex (s : Fin 8192 → Fin 8192 → EReal) (n m : Fin 8192) : EReal :=
  Ideal.exp (s n m - rowMax s n)

/-- The normaliser of row n: the word of 0 plus the sum of the row's exponentials. -/
def den (s : Fin 8192 → Fin 8192 → EReal) (n : Fin 8192) : EReal :=
  Ideal.ofBits .f32 0x00000000#32 + ∑ m : Fin 8192, ex s n m

/-- The result at (n, e): the probabilities of row n against column e of the values. -/
def out (s : Fin 8192 → Fin 8192 → EReal) (V : Fin 8192 → Fin 256 → EReal) (n : Fin 8192) (e : Fin 256) : EReal :=
  ∑ m : Fin 8192, Ideal.div (ex s n m) (den s n) * V m e

/-- The scores of the nine arrays (only eight enter: not Wv). -/
def scores (x pd p3s : Ind → EReal) (p3d spd edge : Inn → EReal) (Wq Wk : Idd → EReal) : Fin 8192 → Fin 8192 → EReal :=
  score (proj (xc x pd p3s) Wq) (proj (xc x pd p3s) Wk) spd edge p3d

/-- THE RESULT as one function of the nine argument arrays, in the order
    x, phi_degree, phi_3d_sum, phi_3d, phi_spd, phi_edge, Wq, Wk, Wv. -/
def G (x pd p3s : Ind → EReal) (p3d spd edge : Inn → EReal) (Wq Wk Wv : Idd → EReal) : Ind → EReal :=
  fun i => out (scores x pd p3s p3d spd edge Wq Wk) (proj (xc x pd p3s) Wv) (i 0) (i 1)

/-- The result at the index of coordinates (n, e). -/
theorem G_ix2 (x pd p3s : Ind → EReal) (p3d spd edge : Inn → EReal) (Wq Wk Wv : Idd → EReal) (n : Fin 8192) (e : Fin 256) :
    G x pd p3s p3d spd edge Wq Wk Wv (ix2 n e)
      = out (scores x pd p3s p3d spd edge Wq Wk) (proj (xc x pd p3s) Wv) n e := rfl

/-! ## The plain forms of the maximum and of the normaliser -/

/-- Folding max from the bottom element over a finite family is its supremum. -/
theorem fold_max_bot_eq_sup {ι : Type*} (t : Finset ι) (g : ι → EReal) :
    t.fold max (⊥ : EReal) g = t.sup g := by
  classical
  induction t using Finset.induction_on with
  | empty => simp
  | insert a t ha ih => rw [Finset.fold_insert ha, Finset.sup_insert, ih]

/-- The row maximum is the supremum of the row. -/
theorem rowMax_eq_sup (s : Fin 8192 → Fin 8192 → EReal) (n : Fin 8192) :
    rowMax s n = (Finset.univ : Finset (Fin 8192)).sup (s n) := by
  unfold rowMax
  rw [ofBits_negInf, fold_max_bot_eq_sup, max_eq_right bot_le]

/-- Every score of a row is at most the row's maximum. -/
theorem le_rowMax (s : Fin 8192 → Fin 8192 → EReal) (n m : Fin 8192) : s n m ≤ rowMax s n := by
  rw [rowMax_eq_sup]; exact Finset.le_sup (f := s n) (Finset.mem_univ m)

/-- The normaliser is the plain sum of the row's exponentials. -/
theorem den_eq_sum (s : Fin 8192 → Fin 8192 → EReal) (n : Fin 8192) :
    den s n = ∑ m : Fin 8192, ex s n m := by
  unfold den
  rw [ofBits_zero, zero_add]

end Cert.Spec

end
-- ==== Proof.RefValue.lean ====
/-
  The reference computes the specification.

  The reference program is a chain of whole-array operations: two sums of arrays, three projections, the product of
  queries against keys, a scaling and three bias additions, a row maximum, a subtraction, an exponential, a row sum, a
  quotient and the product with the values. Read at the index of coordinates (n, m) or (n, e), each stage is the stage of
  the specification of the same name at those coordinates: a pointwise operation reads its operands at the same index;
  a contraction is the sum over the contracted coordinate of the two operands at the indices with that coordinate put
  in; a reduction along the second axis folds, or sums, over the second coordinate; a broadcast of a column reads the
  column at the row's coordinate. The stages are taken in program order, each lemma citing the one before, so that no
  stage's term is ever opened twice.

  Then the run: the program terminates with its result array at the specification's function of the argument
  arrays, and with the arguments unchanged.
-/
import proofs.«137085_j64776696758780_2_alg».proof.Defs
import proofs.«137085_j64776696758780_2_alg».proof.Proof.Gen.ReferenceIdeal.Run
import proofs.«137085_j64776696758780_2_alg».proof.Proof.Gen.ReferenceIdeal.Read
import proofs.«137085_j64776696758780_2_alg».proof.Proof.Gen.Pre_finite_inputs
import proofs.«137085_j64776696758780_2_alg».proof.Proof.Spec

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.Spec
open scoped BigOperators

/-! ## Indices by their coordinates -/

/-- A rank-2 index whose coordinates are p and q is the index built from p and q. -/
theorem eq_ix2_of_val {a b : Nat} (j : (⟨2, ![a, b]⟩ : Shape).Idx) (p : Fin a) (q : Fin b)
    (h0 : (j 0).val = p.val) (h1 : (j 1).val = q.val) : j = ix2 p q :=
  funext fun d => Fin.ext (by match d with | ⟨0, _⟩ => exact h0 | ⟨1, _⟩ => exact h1)

/-- A rank-1 index whose coordinate is p is the index built from p. -/
theorem eq_ix1_of_val {a : Nat} (j : (⟨1, ![a]⟩ : Shape).Idx) (p : Fin a) (h0 : (j 0).val = p.val) : j = ix1 p :=
  funext fun d => Fin.ext (by match d with | ⟨0, _⟩ => exact h0)

/-- Dropping the second axis of an 8192 × 8192 array leaves its rows. -/
theorem reduces_rows : S8192x8192.Reduces [1] S8192 := by decide

/-- At the extended reals the float maximum is max: folding either over a family gives the same value. -/
theorem fold_maximumf_eq (b : EReal) (g : Fin 8192 → EReal) :
    (Finset.univ : Finset (Fin 8192)).fold (FloatOps.maximumf (F := Ideal) (φ := .f32)) b g
      = (Finset.univ : Finset (Fin 8192)).fold max b g := rfl

section Stages

variable (x0 x1 x2 : (⟨S8192x256, .f32⟩ : BufTy).Contents (Elt Ideal))
  (x3 x4 x5 : (⟨S8192x8192, .f32⟩ : BufTy).Contents (Elt Ideal))
  (x6 x7 x8 : (⟨S256x256, .f32⟩ : BufTy).Contents (Elt Ideal))

/-! ## The stages, in program order -/

/-- The two array sums: the biased features. -/
theorem v1_at (n : Fin 8192) (d : Fin 256) :
    val_main_v1 (F := Ideal) x0 x1 x2 (ix2 n d) = xc x0 x1 x2 n d := rfl

/-- The query projection. -/
theorem v2_at (n : Fin 8192) (e : Fin 256) :
    val_main_v2 (F := Ideal) x0 x1 x2 x6 (ix2 n e) = proj (xc x0 x1 x2) x6 n e := by
  rw [val_main_v2_apply]
  unfold proj
  refine Finset.sum_congr rfl fun k _ => ?_
  rw [show lidx_main_v2 (ix2 n e) k = ix2 n k from eq_ix2_of_val _ _ _ rfl rfl,
    show ridx_main_v2 (ix2 n e) k = ix2 k e from eq_ix2_of_val _ _ _ rfl rfl, v1_at]

/-- The key projection. -/
theorem v3_at (n : Fin 8192) (e : Fin 256) :
    val_main_v3 (F := Ideal) x0 x1 x2 x7 (ix2 n e) = proj (xc x0 x1 x2) x7 n e := by
  rw [val_main_v3_apply]
  unfold proj
  refine Finset.sum_congr rfl fun k _ => ?_
  rw [show lidx_main_v3 (ix2 n e) k = ix2 n k from eq_ix2_of_val _ _ _ rfl rfl,
    show ridx_main_v3 (ix2 n e) k = ix2 k e from eq_ix2_of_val _ _ _ rfl rfl, v1_at]

/-- The value projection. -/
theorem v4_at (n : Fin 8192) (e : Fin 256) :
    val_main_v4 (F := Ideal) x0 x1 x2 x8 (ix2 n e) = proj (xc x0 x1 x2) x8 n e := by
  rw [val_main_v4_apply]
  unfold proj
  refine Finset.sum_congr rfl fun k _ => ?_
  rw [show lidx_main_v4 (ix2 n e) k = ix2 n k from eq_ix2_of_val _ _ _ rfl rfl,
    show ridx_main_v4 (ix2 n e) k = ix2 k e from eq_ix2_of_val _ _ _ rfl rfl, v1_at]

/-- Queries against keys: both operands are contracted along their second axis. -/
theorem v5_at (n m : Fin 8192) :
    val_main_v5 (F := Ideal) x0 x1 x2 x6 x7 (ix2 n m)
      = ∑ e : Fin 256, proj (xc x0 x1 x2) x6 n e * proj (xc x0 x1 x2) x7 m e := by
  rw [val_main_v5_apply]
  refine Finset.sum_congr rfl fun k _ => ?_
  rw [show lidx_main_v5 (ix2 n m) k = ix2 n k from eq_ix2_of_val _ _ _ rfl rfl,
    show ridx_main_v5 (ix2 n m) k = ix2 m k from eq_ix2_of_val _ _ _ rfl rfl, v2_at, v3_at]

/-- The scaling and the three bias additions: the scores. -/
theorem v10_at (n m : Fin 8192) :
    val_main_v10 (F := Ideal) x0 x1 x2 x3 x4 x5 x6 x7 (ix2 n m) = scores x0 x1 x2 x3 x4 x5 x6 x7 n m := by
  rw [val_main_v10_apply, val_main_v9_apply, val_main_v8_apply, val_main_v7_apply, val_main_v6_apply,
    val_main_cst_apply, v5_at]
  rfl

/-- A reduced index with the coordinate k put back on the second axis is the index of coordinates (n, k). -/
theorem lift_row (n k : Fin 8192) : reduces_rows.lift (ix1 n) k = ix2 n k :=
  eq_ix2_of_val _ _ _ rfl rfl

/-- A maximum reduction of an 8192 × 8192 array along its second axis, read at row n: the fold of max, from the
    initial value, over the entries of the row. -/
theorem hostReduce_max_row (y : (⟨S8192x8192, .f32⟩ : BufTy).Contents (Elt Ideal))
    (init : (⟨S_, .f32⟩ : BufTy).Contents (Elt Ideal)) (n : Fin 8192) :
    Host.reduce (FloatOps.maximumf (F := Ideal) (φ := .f32)) y init reducesTo_S8192x8192_S8192_d1 h_S_ (ix1 n)
      = (Finset.univ : Finset (Fin 8192)).fold max (init (Shape.Idx.first h_S_)) (fun k => y (ix2 n k)) := by
  have h := Host.reduce_eq_fold_single (FloatOps.maximumf (F := Ideal) (φ := .f32)) y init
    reducesTo_S8192x8192_S8192_d1 reduces_rows h_S_ (ix1 n)
  have hf : (y ∘ reduces_rows.lift (ix1 n)) = fun k : Fin 8192 => y (ix2 n k) :=
    funext fun k => congrArg y (lift_row n k)
  rw [hf] at h
  exact h.trans (fold_maximumf_eq _ _)

/-- The maximum reduction along the second axis: the fold of max, from the word of −∞, over the row. -/
theorem v11_at (n : Fin 8192) :
    val_main_v11 (F := Ideal) x0 x1 x2 x3 x4 x5 x6 x7 (ix1 n)
      = (Finset.univ : Finset (Fin 8192)).fold max (Ideal.ofBits .f32 0xFF800000#32)
          (scores x0 x1 x2 x3 x4 x5 x6 x7 n) := by
  unfold val_main_v11
  refine (hostReduce_max_row (val_main_v10 (F := Ideal) x0 x1 x2 x3 x4 x5 x6 x7) (val_main_cst_0 (F := Ideal)) n).trans ?_
  have hf : (fun k : Fin 8192 => val_main_v10 (F := Ideal) x0 x1 x2 x3 x4 x5 x6 x7 (ix2 n k))
      = scores x0 x1 x2 x3 x4 x5 x6 x7 n := funext fun k => v10_at x0 x1 x2 x3 x4 x5 x6 x7 n k
  rw [hf, val_main_cst_0_apply]
  rfl

/-- The maximum against the broadcast word of −∞: the row maximum. -/
theorem v13_at (n : Fin 8192) :
    val_main_v13 (F := Ideal) x0 x1 x2 x3 x4 x5 x6 x7 (ix1 n) = rowMax (scores x0 x1 x2 x3 x4 x5 x6 x7) n := by
  rw [val_main_v13_apply, val_main_v12_apply, val_main_cst_1_apply, v11_at]
  rfl

/-- The row maximum as a column, broadcast along the rows. -/
theorem v15_at (n m : Fin 8192) :
    val_main_v15 (F := Ideal) x0 x1 x2 x3 x4 x5 x6 x7 (ix2 n m) = rowMax (scores x0 x1 x2 x3 x4 x5 x6 x7) n := by
  rw [val_main_v15_apply, val_main_v14_apply,
    show idx_main_v14 (idx_main_v15 (ix2 n m)) = ix1 n from eq_ix1_of_val _ _ rfl, v13_at]

/-- The subtraction and the exponential. -/
theorem v17_at (n m : Fin 8192) :
    val_main_v17 (F := Ideal) x0 x1 x2 x3 x4 x5 x6 x7 (ix2 n m) = ex (scores x0 x1 x2 x3 x4 x5 x6 x7) n m := by
  rw [val_main_v17_apply, val_main_v16_apply, v10_at, v15_at]
  rfl

/-- The sum reduction along the second axis: the normaliser. -/
theorem v18_at (n : Fin 8192) :
    val_main_v18 (F := Ideal) x0 x1 x2 x3 x4 x5 x6 x7 (ix1 n) = den (scores x0 x1 x2 x3 x4 x5 x6 x7) n := by
  rw [val_main_v18_apply, val_main_cst_2_apply]
  unfold den
  refine congrArg (Ideal.ofBits .f32 0x00000000#32 + ·) (Finset.sum_congr rfl fun k _ => ?_)
  rw [show idx_main_v18 (ix1 n) k = ix2 n k from eq_ix2_of_val _ _ _ rfl rfl, v17_at]

/-- The normaliser as a column, broadcast along the rows. -/
theorem v20_at (n m : Fin 8192) :
    val_main_v20 (F := Ideal) x0 x1 x2 x3 x4 x5 x6 x7 (ix2 n m) = den (scores x0 x1 x2 x3 x4 x5 x6 x7) n := by
  rw [val_main_v20_apply, val_main_v19_apply,
    show idx_main_v19 (idx_main_v20 (ix2 n m)) = ix1 n from eq_ix1_of_val _ _ rfl, v18_at]

/-- The quotient: the probabilities. -/
theorem v21_at (n m : Fin 8192) :
    val_main_v21 (F := Ideal) x0 x1 x2 x3 x4 x5 x6 x7 (ix2 n m)
      = Ideal.div (ex (scores x0 x1 x2 x3 x4 x5 x6 x7) n m) (den (scores x0 x1 x2 x3 x4 x5 x6 x7) n) := by
  rw [val_main_v21_apply, v17_at, v20_at]
  rfl

/-- The probabilities against the values. -/
theorem v22_at (n : Fin 8192) (e : Fin 256) :
    val_main_v22 (F := Ideal) x0 x1 x2 x3 x4 x5 x6 x7 x8 (ix2 n e)
      = out (scores x0 x1 x2 x3 x4 x5 x6 x7) (proj (xc x0 x1 x2) x8) n e := by
  rw [val_main_v22_apply]
  unfold out
  refine Finset.sum_congr rfl fun k _ => ?_
  rw [show lidx_main_v22 (ix2 n e) k = ix2 n k from eq_ix2_of_val _ _ _ rfl rfl,
    show ridx_main_v22 (ix2 n e) k = ix2 k e from eq_ix2_of_val _ _ _ rfl rfl, v21_at, v4_at]

/-- THE REFERENCE IS THE SPECIFICATION: the last stage, as an array, is the specification's function of the nine
    argument arrays. -/
theorem ref_eq_G :
    val_main_v22 (F := Ideal) x0 x1 x2 x3 x4 x5 x6 x7 x8 = G x0 x1 x2 x3 x4 x5 x6 x7 x8 := by
  funext i
  obtain ⟨n, e, rfl⟩ : ∃ (n : Fin 8192) (e : Fin 256), i = ix2 n e := ⟨i 0, i 1, eq_ix2 i⟩
  rw [v22_at, G_ix2]

end Stages

/-! ## The run -/

/-- The reference program, from any memory: it terminates with its result array at the specification's function of
    the argument arrays as the memory holds them, and the nine arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v22_eq m c).trans (ref_eq_G _ _ _ _ _ _ _ _ _)), (h c).2⟩)
    (Cert.ReferenceIdeal.Value.run (F := Ideal) m ρ)

/-- The reference program runs and leaves its arguments unchanged. -/
theorem frame_ref : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.RefAgree.lean ====
/-
  The reference's half of the equivalence, named through the other program's arguments.

  The two programs are run from two memories that hold the same nine argument arrays. The reference ends with its
  result array at the specification's function of ITS arguments; since these are the other memory's arguments, it is
  the specification's function of those — the one value both halves of the equivalence are stated with.
-/
import proofs.«137085_j64776696758780_2_alg».proof.Proof.RefValue

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open Cert.Spec

/-- The reference's run, from a memory that agrees on the nine arguments with another program's memory: the result array is
    the specification's function of THAT memory's argument arrays. This is the reference's half of the equivalence,
    with the common value named through the other program's arguments. -/
theorem run_ref_agree
    (m : (ℓ : Loc Cert.KernelIdeal.nD Cert.KernelIdeal.τ Cert.KernelIdeal.sig) → Buf (Elt Ideal) ℓ)
    (m' : (ℓ : Loc nD τ sig) → Buf (Elt Ideal) ℓ) (ρ' : Dev nD → PrngReg)
    (hagree : ∀ c : Dev Cert.KernelIdeal.nD,
      m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)
      ∧ m' ((c.tc : Thread nD τ).loc main_arg4) = m ((c.tc : Thread Cert.KernelIdeal.nD Cert.KernelIdeal.τ).loc Cert.KernelIdeal.main_arg4)
      ∧ m' ((c.tc : Thread nD τ).loc main_arg5) = m ((c.tc : Thread Cert.KernelIdeal.nD Cert.KernelIdeal.τ).loc Cert.KernelIdeal.main_arg5)
      ∧ m' ((c.tc : Thread nD τ).loc main_arg6) = m ((c.tc : Thread Cert.KernelIdeal.nD Cert.KernelIdeal.τ).loc Cert.KernelIdeal.main_arg6)
      ∧ m' ((c.tc : Thread nD τ).loc main_arg7) = m ((c.tc : Thread Cert.KernelIdeal.nD Cert.KernelIdeal.τ).loc Cert.KernelIdeal.main_arg7)
      ∧ m' ((c.tc : Thread nD τ).loc main_arg8) = m ((c.tc : Thread Cert.KernelIdeal.nD Cert.KernelIdeal.τ).loc Cert.KernelIdeal.main_arg8)) :
    θ_run (defs (F := Ideal)) (onTc (τ := τ) (main (F := Ideal))) ⟨m', fun _ => 0, ρ'⟩ fun r => ∀ c : Dev nD,
      r.2.mem ((c.tc : Thread nD τ).loc main_v22)
          = G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run defs _ _).mono
    (fun _ h c => ⟨(h c).1.trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]),
      (h c).2⟩)
    (run_ref m' ρ')

end Cert.RefValue

end
-- ==== Proof.Assemble.lean ====
/-
  The certificate's claims, from the one equation that carries the mathematics.

  Five claims are made. Three say that a program runs to the end and leaves its nine arguments as they were: each is
  the program's run with the statement about its result dropped. One says what the idealization of the kernel changed:
  a rounding to a narrower format and back, which is the identity on extended reals. The last says that the idealized
  kernel and the idealized reference, from memories holding the same arguments, end with equal results: the kernel's
  run ends with its result buffer at a fold of its two regions' write-backs, the reference's run ends with its result
  at the specification's function of the arguments, and so the claim holds as soon as that fold IS the specification's
  function of the arguments — under the precondition that every argument entry is finite. That equation is the
  hypothesis here; everything else is assembled around it.
-/
import proofs.«137085_j64776696758780_2_alg».proof.Defs
import proofs.«137085_j64776696758780_2_alg».proof.Proof.KI.Run
import proofs.«137085_j64776696758780_2_alg».proof.Proof.KB.Run
import proofs.«137085_j64776696758780_2_alg».proof.Proof.RefAgree
import proofs.«137085_j64776696758780_2_alg».proof.Proof.Gen.Kernel
import proofs.«137085_j64776696758780_2_alg».proof.Proof.Gen.KernelIdeal
import proofs.«137085_j64776696758780_2_alg».proof.Proof.Gen.ReferenceIdeal
import proofs.«137085_j64776696758780_2_alg».proof.Proof.Gen.Pre_finite_inputs
import Idealize.ShloMosaic.PureOps.IdealRules

noncomputable section

namespace Cert.Assemble

open Idealize.ShloMosaic Idealize.ShloMosaic.TcCoe Idealize.SL.Sem

/-- THE VALUE EQUATION: under the precondition, on every core, what the kernel's two regions leave in the result
    buffer is the specification's function of the nine argument arrays as launched. -/
abbrev KernelValue : Prop :=
  ∀ (m : (ℓ : Loc Cert.KernelIdeal.nD Cert.KernelIdeal.τ Cert.KernelIdeal.sig) → Buf (Elt Ideal) ℓ),
    Cert.Pre_KernelIdeal (hPre_finite_inputs := Cert.Pre_finite_inputs.Gen.facts) m →
    ∀ c : Dev Cert.KernelIdeal.nD,
      Cert.KernelIdeal.Hand.W4 (F := Ideal) m c (Proc.devRef .tc Cert.KernelIdeal.main_v1)
        = Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))

/-- The kernel as printed runs and leaves its arguments unchanged. -/
theorem frame_kernel : Cert.frame_Kernel := fun m ρ _ =>
  (θ_run Cert.Kernel.defs _ _).mono (fun _ h c => (h c).2) (Cert.Kernel.Hand.run_full (F := Bits) m ρ)

/-- The idealized kernel runs and leaves its arguments unchanged. -/
theorem frame_kernelIdeal : Cert.frame_KernelIdeal := fun m ρ _ =>
  (θ_run Cert.KernelIdeal.defs _ _).mono (fun _ h c => (h c).2) (Cert.KernelIdeal.Hand.run_full (F := Ideal) m ρ)

/-- What the idealization changed: one rounding to the narrower format and back, the identity on extended reals. -/
theorem preserves : Cert.preserves_Kernel_KernelIdeal := IdealRules.truncf_extf.statement _ .f32 .bf16

/-- The two idealized programs end with equal results, given the value equation. -/
theorem algebraic (hval : KernelValue) : Cert.algebraic_KernelIdeal_ReferenceIdeal := fun m ρ m' ρ' hpre hagree =>
  ⟨fun c => Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8)),
    (θ_run Cert.KernelIdeal.defs _ _).mono (fun _ h c => ⟨(h c).1.trans (hval m hpre c), (h c).2⟩)
      (Cert.KernelIdeal.Hand.run_full (F := Ideal) m ρ),
    Cert.RefValue.run_ref_agree m m' ρ' hagree⟩

/-- EVERYTHING CLAIMED, from the value equation. -/
theorem claim_of (hval : KernelValue) : Cert.Claim :=
  ⟨Cert.Kernel.Gen.facts, Cert.KernelIdeal.Gen.facts, Cert.ReferenceIdeal.Gen.facts, Cert.Pre_finite_inputs.Gen.facts,
    frame_kernel, frame_kernelIdeal, Cert.RefValue.frame_ref, preserves, algebraic hval⟩

end Cert.Assemble

end
-- ==== Proof.LibERealFin.lean ====
/-
  Finite sums and maxima of real numbers, read inside the extended reals.

  The extended reals carry the reals as a sub-structure closed under finite sums, finite maxima, products,
  exponentials and quotients by a nonzero real; each lemma below says that one such operation, applied to
  (coerced) real numbers, yields the (coerced) real result.
-/
import Mathlib
import Idealize.ShloMosaic.PureOps.Ideal

namespace Cert.LibERealFin

open Finset Idealize.ShloMosaic

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max (a := x) (b := y)).symm

/-- The bottom element is neutral for the maximum with a real. -/
theorem max_bot_coe (x : ℝ) : max (⊥ : EReal) (x : EReal) = (x : EReal) :=
  max_eq_right bot_le

/-- The bottom element is neutral for the maximum, on the right. -/
theorem max_coe_bot (x : ℝ) : max (x : EReal) (⊥ : EReal) = (x : EReal) :=
  max_eq_left bot_le

/-- The supremum of a nonempty finite family of reals, taken in the extended reals, is the real supremum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun x : ℝ => (x : EReal)) (fun x y => (max_coe x y).symm)).symm

/-- Folding the maximum from the bottom element over a finite family is its supremum. -/
theorem fold_max_eq_sup {ι : Type*} (s : Finset ι) (g : ι → EReal) :
    s.fold max (⊥ : EReal) g = s.sup g := by
  classical
  induction s using Finset.induction_on with
  | empty => simp
  | insert a s ha ih => rw [Finset.fold_insert ha, Finset.sup_insert, ih]

/-- Folding the maximum from the bottom element over a nonempty finite family of reals gives the real supremum. -/
theorem fold_max_coe {ι : Type*} (s : Finset ι) (hs : s.Nonempty) (f : ι → ℝ) :
    s.fold max (⊥ : EReal) (fun i => ((f i : ℝ) : EReal)) = ((s.sup' hs f : ℝ) : EReal) := by
  rw [fold_max_eq_sup, sup_coe s hs f]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The exponential of a real, taken in the extended reals, is the real exponential. -/
theorem exp_coe (x : ℝ) : Ideal.exp (x : EReal) = ((Real.exp x : ℝ) : EReal) := rfl

/-- The exponential of a difference of reals. -/
theorem exp_coe_sub (x y : ℝ) :
    Ideal.exp ((x : EReal) - (y : EReal)) = ((Real.exp (x - y) : ℝ) : EReal) := by
  rw [← EReal.coe_sub]; rfl

/-- The bottom element minus a real is the bottom element. -/
theorem bot_sub_coe (x : ℝ) : (⊥ : EReal) - (x : EReal) = ⊥ := by
  rw [sub_eq_add_neg, EReal.bot_add]

/-- The exponential of the bottom element minus a real is zero. -/
theorem exp_bot_sub_coe (x : ℝ) : Ideal.exp ((⊥ : EReal) - (x : EReal)) = 0 := by
  rw [bot_sub_coe]; rfl

/-- A vanishing product added on the left changes nothing. -/
theorem zero_mul_zero_add (x : EReal) : (0 : EReal) * 0 + x = x := by
  rw [zero_mul, zero_add]

/-- A zero factor on the left, added on the left, changes nothing. -/
theorem zero_mul_add (y x : EReal) : (0 : EReal) * y + x = x := by
  rw [zero_mul, zero_add]

/-- The product of two reals, taken in the extended reals, is the real product. -/
theorem mul_coe (x y : ℝ) : (x : EReal) * (y : EReal) = ((x * y : ℝ) : EReal) :=
  (EReal.coe_mul x y).symm

/-- The sum of two reals, taken in the extended reals, is the real sum. -/
theorem add_coe (x y : ℝ) : (x : EReal) + (y : EReal) = ((x + y : ℝ) : EReal) :=
  (EReal.coe_add x y).symm

/-- The difference of two reals, taken in the extended reals, is the real difference. -/
theorem sub_coe (x y : ℝ) : (x : EReal) - (y : EReal) = ((x - y : ℝ) : EReal) :=
  (EReal.coe_sub x y).symm

/-- A sum over a finite type of reals, taken in the extended reals, is the real sum. -/
theorem coe_sum_univ {ι : Type*} [Fintype ι] (f : ι → ℝ) :
    (∑ i, ((f i : ℝ) : EReal)) = ((∑ i, f i : ℝ) : EReal) :=
  coe_sum Finset.univ f

end Cert.LibERealFin
-- ==== Proof.OnlineSoftmax.lean ====
/-
  The online (tile-by-tile) softmax recurrence against the two-pass softmax, over the extended reals.

  A row of scores is cut into tiles `j = 0, 1, …` of `W` columns. The recurrence keeps a running maximum `m`,
  a running denominator `l` and a running numerator `acc`; each tile rescales the old `l` and `acc` by
  `exp (m_old - m_new)` and adds the tile's own terms `exp (s - m_new)` (times the values, for `acc`).
  When all scores and values are real numbers, after `T ≥ 1` tiles one has, for the real number `μ = m_T`,
      l_T = ∑ exp (s - μ),   acc_T = ∑ exp (s - μ) · v,
  because `exp (μ_old - μ_new) · exp (s - μ_old) = exp (s - μ_new)`. The first tile starts from `m_0 = ⊥`:
  its rescaling factor is `exp ⊥ = 0`, and it multiplies `l_0 = acc_0 = 0`.
  The quotient `acc_T / l_T` does not depend on the shift: for every real `M`,
      (∑ exp (s - μ) · v) / (∑ exp (s - μ)) = ∑ (exp (s - M) / ∑ exp (s - M)) · v,
  since both sums on the left are `exp (M - μ)` times the corresponding sums at `M`. The denominator is a
  sum of positive reals over a nonempty index set, so it is not zero.
-/
import Mathlib
import Idealize.ShloMosaic.PureOps.Ideal
import proofs.«137085_j64776696758780_2_alg».proof.Proof.LibERealFin

noncomputable section

namespace Cert.OnlineSoftmax

open Finset Idealize.ShloMosaic

variable {W : ℕ}

/-! ### The recurrence -/

/-- The maximum of tile `j`'s scores: the fold of `max` from `⊥` over the tile's columns. -/
def tmax (S : ℕ → Fin W → EReal) (j : ℕ) : EReal :=
  (Finset.univ : Finset (Fin W)).fold max (⊥ : EReal) (S j)

/-- The running maximum after `j` tiles. -/
def m (S : ℕ → Fin W → EReal) : ℕ → EReal
  | 0 => ⊥
  | j + 1 => max (m S j) (tmax S j)

/-- The running denominator after `j` tiles. -/
def l (S : ℕ → Fin W → EReal) : ℕ → EReal
  | 0 => 0
  | j + 1 => Ideal.exp (m S j - m S (j + 1)) * l S j + ∑ k, Ideal.exp (S j k - m S (j + 1))

/-- The running numerator after `j` tiles. -/
def acc (S V : ℕ → Fin W → EReal) : ℕ → EReal
  | 0 => 0
  | j + 1 => Ideal.exp (m S j - m S (j + 1)) * acc S V j + ∑ k, Ideal.exp (S j k - m S (j + 1)) * V j k

theorem tmax_eq_fold (S : ℕ → Fin W → EReal) (j : ℕ) :
    tmax S j = (Finset.univ : Finset (Fin W)).fold max (⊥ : EReal) (S j) := rfl

theorem tmax_eq_sup (S : ℕ → Fin W → EReal) (j : ℕ) :
    tmax S j = (Finset.univ : Finset (Fin W)).sup (S j) := Cert.LibERealFin.fold_max_eq_sup _ _

theorem m_zero (S : ℕ → Fin W → EReal) : m S 0 = ⊥ := rfl
theorem m_succ (S : ℕ → Fin W → EReal) (j : ℕ) : m S (j + 1) = max (m S j) (tmax S j) := rfl
theorem l_zero (S : ℕ → Fin W → EReal) : l S 0 = 0 := rfl
theorem l_succ (S : ℕ → Fin W → EReal) (j : ℕ) :
    l S (j + 1) = Ideal.exp (m S j - m S (j + 1)) * l S j + ∑ k, Ideal.exp (S j k - m S (j + 1)) := rfl
theorem l_succ' (S : ℕ → Fin W → EReal) (j : ℕ) :
    l S (j + 1) = Ideal.exp (m S j - max (m S j) (tmax S j)) * l S j
      + ∑ k, Ideal.exp (S j k - max (m S j) (tmax S j)) := rfl
theorem acc_zero (S V : ℕ → Fin W → EReal) : acc S V 0 = 0 := rfl
theorem acc_succ (S V : ℕ → Fin W → EReal) (j : ℕ) :
    acc S V (j + 1) = Ideal.exp (m S j - m S (j + 1)) * acc S V j
      + ∑ k, Ideal.exp (S j k - m S (j + 1)) * V j k := rfl
theorem acc_succ' (S V : ℕ → Fin W → EReal) (j : ℕ) :
    acc S V (j + 1) = Ideal.exp (m S j - max (m S j) (tmax S j)) * acc S V j
      + ∑ k, Ideal.exp (S j k - max (m S j) (tmax S j)) * V j k := rfl

/-- The denominator is the numerator for the constant values `1`. -/
theorem l_eq_acc_one (S : ℕ → Fin W → EReal) (j : ℕ) : l S j = acc S (fun _ _ => 1) j := by
  induction j with
  | zero => rfl
  | succ j ih => rw [l_succ, acc_succ, ih]; simp only [mul_one]

/-! ### The real sums -/

/-- The shifted exponential sum over the first `j` tiles, weighted by `w`. -/
def G (s w : ℕ → Fin W → ℝ) (j : ℕ) (μ : ℝ) : ℝ :=
  ∑ j' ∈ Finset.range j, ∑ k, Real.exp (s j' k - μ) * w j' k

theorem G_zero (s w : ℕ → Fin W → ℝ) (μ : ℝ) : G s w 0 μ = 0 := by
  simp [G]

theorem G_succ (s w : ℕ → Fin W → ℝ) (j : ℕ) (μ : ℝ) :
    G s w (j + 1) μ = G s w j μ + ∑ k, Real.exp (s j k - μ) * w j k := by
  simp only [G]; rw [Finset.sum_range_succ]

/-- Changing the shift from `μ` to `μ'` multiplies the sum by `exp (μ - μ')`. -/
theorem G_rescale (s w : ℕ → Fin W → ℝ) (j : ℕ) (μ μ' : ℝ) :
    Real.exp (μ - μ') * G s w j μ = G s w j μ' := by
  simp only [G]
  rw [Finset.mul_sum]
  refine Finset.sum_congr rfl fun j' _ => ?_
  rw [Finset.mul_sum]
  refine Finset.sum_congr rfl fun k _ => ?_
  rw [← mul_assoc, ← Real.exp_add]
  congr 2
  ring

/-! ### One step, on real data -/

theorem acc_step_real (S V : ℕ → Fin W → EReal) (s v : ℕ → Fin W → ℝ) (j : ℕ)
    (hSj : ∀ k, S j k = (s j k : EReal)) (hVj : ∀ k, V j k = (v j k : EReal)) (α μ' x : ℝ)
    (hm' : m S (j + 1) = (μ' : EReal)) (hα : Ideal.exp (m S j - m S (j + 1)) = (α : EReal))
    (hx : acc S V j = (x : EReal)) :
    acc S V (j + 1) = ((α * x + ∑ k, Real.exp (s j k - μ') * v j k : ℝ) : EReal) := by
  rw [acc_succ, hα, hx, hm']
  simp only [hSj, hVj, Cert.LibERealFin.exp_coe_sub, Cert.LibERealFin.mul_coe,
    Cert.LibERealFin.coe_sum_univ, Cert.LibERealFin.add_coe]

/-! ### The invariant -/

theorem invariant (T : ℕ) (hW : 0 < W) (S : ℕ → Fin W → EReal) (s : ℕ → Fin W → ℝ)
    (hS : ∀ j, j < T → ∀ k, S j k = (s j k : EReal)) :
    ∀ j, j ≤ T → ∃ μ : ℝ, (m S j = (μ : EReal) ∨ (j = 0 ∧ m S j = ⊥)) ∧
      ∀ (V : ℕ → Fin W → EReal) (v : ℕ → Fin W → ℝ),
        (∀ j, j < T → ∀ k, V j k = (v j k : EReal)) → acc S V j = ((G s v j μ : ℝ) : EReal) := by
  haveI : Nonempty (Fin W) := ⟨⟨0, hW⟩⟩
  intro j
  induction j with
  | zero =>
    intro _
    exact ⟨0, Or.inr ⟨rfl, rfl⟩, fun V v _ => by rw [acc_zero, G_zero, EReal.coe_zero]⟩
  | succ j ih =>
    intro hj
    have hjT : j < T := hj
    obtain ⟨μ, hm, hacc⟩ := ih (le_of_lt hjT)
    have hτ : tmax S j = ((Finset.univ.sup' Finset.univ_nonempty (s j) : ℝ) : EReal) := by
      rw [tmax, show S j = fun k => ((s j k : ℝ) : EReal) from funext (hS j hjT)]
      exact Cert.LibERealFin.fold_max_coe _ _ _
    generalize Finset.univ.sup' Finset.univ_nonempty (s j) = τ at hτ
    rcases hm with hm | ⟨rfl, hm⟩
    · have hm' : m S (j + 1) = ((max μ τ : ℝ) : EReal) := by
        rw [m_succ, hm, hτ, Cert.LibERealFin.max_coe]
      refine ⟨max μ τ, Or.inl hm', fun V v hV => ?_⟩
      have hα : Ideal.exp (m S j - m S (j + 1)) = ((Real.exp (μ - max μ τ) : ℝ) : EReal) := by
        rw [hm, hm', Cert.LibERealFin.exp_coe_sub]
      rw [acc_step_real S V s v j (hS j hjT) (hV j hjT) _ _ _ hm' hα (hacc V v hV), G_rescale, G_succ]
    · have hm' : m S (0 + 1) = ((τ : ℝ) : EReal) := by
        rw [m_succ, hm, hτ, Cert.LibERealFin.max_bot_coe]
      refine ⟨τ, Or.inl hm', fun V v hV => ?_⟩
      have hα : Ideal.exp (m S 0 - m S (0 + 1)) = ((0 : ℝ) : EReal) := by
        rw [hm, hm', Cert.LibERealFin.exp_bot_sub_coe, EReal.coe_zero]
      rw [acc_step_real S V s v 0 (hS 0 hjT) (hV 0 hjT) _ _ _ hm' hα (hacc V v hV), G_succ, G_zero,
        G_zero, zero_mul]

/-! ### The law -/

/-- The law joining the online recurrence to the two-pass softmax, for ANY real shift `M`. -/
theorem online_softmax (T : ℕ) (hT : 0 < T) (hW : 0 < W)
    (S V : ℕ → Fin W → EReal) (s v : ℕ → Fin W → ℝ)
    (hS : ∀ j, j < T → ∀ k, S j k = (s j k : EReal))
    (hV : ∀ j, j < T → ∀ k, V j k = (v j k : EReal)) (M : ℝ) :
    Ideal.div (acc S V T) (l S T)
      = ∑ j ∈ Finset.range T, ∑ k, Ideal.div (Ideal.exp (S j k - (M : EReal)))
          (∑ j' ∈ Finset.range T, ∑ k', Ideal.exp (S j' k' - (M : EReal))) * V j k := by
  haveI : Nonempty (Fin W) := ⟨⟨0, hW⟩⟩
  obtain ⟨μ, -, hacc⟩ := invariant T hW S s hS T le_rfl
  have hA := hacc V v hV
  have hL := hacc (fun _ _ => 1) (fun _ _ => 1) (fun _ _ _ => EReal.coe_one.symm)
  have hpos : ∀ ν : ℝ, 0 < ∑ j' ∈ Finset.range T, ∑ k' : Fin W, Real.exp (s j' k' - ν) := fun ν =>
    Finset.sum_pos (fun _ _ => Finset.sum_pos (fun _ _ => Real.exp_pos _) Finset.univ_nonempty)
      (Finset.nonempty_range_iff.mpr hT.ne')
  have hG1 : ∀ ν : ℝ, G s (fun _ _ => 1) T ν = ∑ j' ∈ Finset.range T, ∑ k' : Fin W, Real.exp (s j' k' - ν) := by
    intro ν; simp only [G, mul_one]
  rw [l_eq_acc_one, hA, hL, Cert.LibERealFin.div_coe_coe _ (by rw [hG1]; exact (hpos μ).ne')]
  have hden : (∑ j' ∈ Finset.range T, ∑ k', Ideal.exp (S j' k' - (M : EReal)))
      = ((∑ j' ∈ Finset.range T, ∑ k' : Fin W, Real.exp (s j' k' - M) : ℝ) : EReal) := by
    rw [← Cert.LibERealFin.coe_sum]
    refine Finset.sum_congr rfl fun j' hj' => ?_
    rw [← Cert.LibERealFin.coe_sum_univ]
    refine Finset.sum_congr rfl fun k' _ => ?_
    rw [hS j' (Finset.mem_range.mp hj'), Cert.LibERealFin.exp_coe_sub]
  rw [hden]
  generalize hD : (∑ j' ∈ Finset.range T, ∑ k' : Fin W, Real.exp (s j' k' - M)) = D
  have hD0 : D ≠ 0 := by rw [← hD]; exact (hpos M).ne'
  have hterm : ∀ j ∈ Finset.range T,
      (∑ k, Ideal.div (Ideal.exp (S j k - (M : EReal))) (D : EReal) * V j k)
        = ((∑ k, Real.exp (s j k - M) / D * v j k : ℝ) : EReal) := by
    intro j hj
    rw [← Cert.LibERealFin.coe_sum_univ]
    refine Finset.sum_congr rfl fun k _ => ?_
    rw [hS j (Finset.mem_range.mp hj), hV j (Finset.mem_range.mp hj), Cert.LibERealFin.exp_coe_sub,
      Cert.LibERealFin.div_coe_coe _ hD0, Cert.LibERealFin.mul_coe]
  rw [Finset.sum_congr rfl hterm, Cert.LibERealFin.coe_sum]
  congr 1
  rw [← G_rescale s v T M μ, ← G_rescale s (fun _ _ => 1) T M μ,
    mul_div_mul_left _ _ (Real.exp_pos _).ne', hG1, hD]
  simp only [G]
  rw [Finset.sum_div]
  refine Finset.sum_congr rfl fun j _ => ?_
  rw [Finset.sum_div]
  refine Finset.sum_congr rfl fun k _ => ?_
  ring

/-- The same with the tile sums over `Fin T`. -/
theorem online_softmax_fin (T : ℕ) (hT : 0 < T) (hW : 0 < W)
    (S V : ℕ → Fin W → EReal) (s v : ℕ → Fin W → ℝ)
    (hS : ∀ j, j < T → ∀ k, S j k = (s j k : EReal))
    (hV : ∀ j, j < T → ∀ k, V j k = (v j k : EReal)) (M : ℝ) :
    Ideal.div (acc S V T) (l S T)
      = ∑ j : Fin T, ∑ k, Ideal.div (Ideal.exp (S j k - (M : EReal)))
          (∑ j' : Fin T, ∑ k', Ideal.exp (S j' k' - (M : EReal))) * V j k := by
  rw [online_softmax T hT hW S V s v hS hV M,
    Fin.sum_univ_eq_sum_range (fun j => ∑ k', Ideal.exp (S j k' - (M : EReal))) T,
    Fin.sum_univ_eq_sum_range (fun j => ∑ k, Ideal.div (Ideal.exp (S j k - (M : EReal)))
      (∑ j' ∈ Finset.range T, ∑ k', Ideal.exp (S j' k' - (M : EReal))) * V j k) T]

end Cert.OnlineSoftmax
-- ==== Proof.KI.Defs1.lean ====
/-
  The attention region read at the extended reals, in terms of the arrays V the region is entered with: the score of a
  query row against a key row, a value entry, the scores of one query row laid out key tile by key tile, and the
  statement that after grid point n the three carried buffers hold the online-softmax recurrence's running maximum,
  denominator and numerator of the point's query rows after (n mod 8) + 1 key tiles.
-/
import proofs.«137085_j64776696758780_2_alg».proof.Proof.KI.Data1
import proofs.«137085_j64776696758780_2_alg».proof.Proof.Spec
import proofs.«137085_j64776696758780_2_alg».proof.Proof.OnlineSoftmax
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- Column k of key tile j (taken mod 8, so that it is total in j). -/
def colN (j : ℕ) (k : Fin 1024) : Fin 8192 := ⟨(j % 8) * 1024 + k.val, by have := k.isLt; omega⟩
/-- Row r of query tile q (taken mod 16). -/
def rowN (q : ℕ) (r : Fin 512) : Fin 8192 := ⟨(q % 16) * 512 + r.val, by have := r.isLt; omega⟩

/-- The projected queries, keys and values and the three biases, as the attention region finds them. -/
abbrev aQ : S8192x256.Idx → EReal := V c main_v0_0
abbrev aK : S8192x256.Idx → EReal := V c main_v0_1
abbrev aV : S8192x256.Idx → EReal := V c main_v0_2
abbrev aSpd : S8192x8192.Idx → EReal := V c main_arg4
abbrev aEdge : S8192x8192.Idx → EReal := V c main_arg5
abbrev aP3d : S8192x8192.Idx → EReal := V c main_arg3

/-- The score of query row n against key row m'. -/
def sc (n m' : Fin 8192) : EReal :=
  Cert.Spec.score (fun n e => aQ V c (ix2 n e)) (fun m e => aK V c (ix2 m e)) (aSpd V c) (aEdge V c) (aP3d V c) n m'
/-- Entry (m', e) of the values. -/
def vv (m' : Fin 8192) (e : Fin 256) : EReal := aV V c (ix2 m' e)
/-- Query row n's scores, key tile by key tile; output column e's values likewise. -/
def Srow (n : Fin 8192) : ℕ → Fin 1024 → EReal := fun j k => sc V c n (colN j k)
def Vcol (e : Fin 256) : ℕ → Fin 1024 → EReal := fun j k => vv V c (colN j k) e

/-- After grid point n the carried buffers hold the recurrence after (n mod 8) + 1 key tiles, for the point's query rows. -/
def Carried : Prop := ∀ (n : ℕ) (h : n < cfg1.N) (r : Fin 512) (e : Fin 256),
  (outsAt1 V c n h).2.1 (ix2 r 0) = Cert.OnlineSoftmax.m (Srow V c (rowN (n / 8) r)) (n % 8 + 1)
  ∧ (outsAt1 V c n h).2.2.1 (ix2 r 0) = Cert.OnlineSoftmax.l (Srow V c (rowN (n / 8) r)) (n % 8 + 1)
  ∧ (outsAt1 V c n h).2.2.2 (ix2 r e) = Cert.OnlineSoftmax.acc (Srow V c (rowN (n / 8) r)) (Vcol V c e) (n % 8 + 1)

end Cert.KernelIdeal.Hand

end
-- ==== Proof.KI.Pieces1.lean ====
/-
  The pieces the attention body's runs found, read back as values. One key tile turns the carried running maximum,
  denominator and numerator (s0, s1, s2) into stepM, stepL, stepAcc of the point's blocks: the K and V tiles are the
  1024 rows of the resident K and V buffers at the tile's offset. The first key tile does the same from the reset values;
  the last also stores numerator / denominator into the output block.
-/
import proofs.«137085_j64776696758780_2_alg».proof.Proof.KI.Outs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The current key tile's rectangle inside the resident K (or V) buffer. -/
abbrev rK (i : grid1.Coords) : Rect S8192x256 := Rect.unit (s := S8192x256) (k1_off1 i) S1024x256.size (k1_off1_inb i)

/-- The running maximum after one key tile, from the maximum before (s0). -/
def stepM (x0 : Vec F S512x256 .bf16) (x1 x2 : Vec F S8192x256 .bf16) (x3 x4 x5 : Vec F S512x1024 .f32) (i : grid1.Coords) (s0 : Vec F S512x1 .f32) : Vec F S512x1 .f32 :=
  k1_pay3 (k1_pay10 (View.ld x1 (rK i)) x0 x3 x4 x5 s0)
/-- The running denominator after one key tile, from the maximum (s0) and denominator (s1) before. -/
def stepL (x0 : Vec F S512x256 .bf16) (x1 x2 : Vec F S8192x256 .bf16) (x3 x4 x5 : Vec F S512x1024 .f32) (i : grid1.Coords) (s0 s1 : Vec F S512x1 .f32) : Vec F S512x1 .f32 :=
  k1_pay1 (k1_pay14 (View.ld x1 (rK i)) x0 x3 x4 x5 s0 s1) (k1_pay15 (View.ld x1 (rK i)) x0 x3 x4 x5 s0)
/-- The running numerator after one key tile, from the maximum (s0) and numerator (s2) before. -/
def stepAcc (x0 : Vec F S512x256 .bf16) (x1 x2 : Vec F S8192x256 .bf16) (x3 x4 x5 : Vec F S512x1024 .f32) (i : grid1.Coords) (s0 : Vec F S512x1 .f32) (s2 : Vec F S512x256 .f32) : Vec F S512x256 .f32 :=
  k1_pay2 (k1_pay8 (View.ld x2 (rK i))) (k1_pay11 (View.ld x1 (rK i)) x0 x3 x4 x5 s0) (k1_pay13 (View.ld x1 (rK i)) x0 x3 x4 x5 s0) s2

theorem sout_B_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) :
    sout1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = stepM x0 x1 x2 x3 x4 x5 i xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_B_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) :
    sout1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = stepL x0 x1 x2 x3 x4 x5 i xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_B_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : ¬cond1_1 i) (x0 : Vec F S512x256 .bf16) (x1 x2 : Vec F S8192x256 .bf16) (x3 x4 x5 : Vec F S512x1024 .f32) (xs0 xs1 : Vec F S512x1 .f32) (xs2 : Vec F S512x256 .f32) :
    sout1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = stepAcc x0 x1 x2 x3 x4 x5 i xs0 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_C_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) :
    sout1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = stepM x0 x1 x2 x3 x4 x5 i xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_C_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) :
    sout1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = stepL x0 x1 x2 x3 x4 x5 i xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_C_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) :
    sout1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = stepAcc x0 x1 x2 x3 x4 x5 i xs0 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_A_0 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) :
    sout1_A_0 c i arg2 harg2 arg3 harg3 arg4 harg4 arg5 harg5 arg6 harg6 arg7 harg7 arg8 harg8 arg9 harg9 arg10 harg10 arg11 harg11 hc0 hc1 x0 x1 x2 x3 x4 x5 = stepM x0 x1 x2 x3 x4 x5 i k1_pay5 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_run_names
  first | rw [View.canon_cons_unit_zero (S := S512x1) hz] | rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_A_1 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) :
    sout1_A_1 c i arg2 harg2 arg3 harg3 arg4 harg4 arg5 harg5 arg6 harg6 arg7 harg7 arg8 harg8 arg9 harg9 arg10 harg10 arg11 harg11 hc0 hc1 x0 x1 x2 x3 x4 x5 = stepL x0 x1 x2 x3 x4 x5 i k1_pay5 k1_pay6 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_run_names
  first | rw [View.canon_cons_unit_zero (S := S512x1) hz] | rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

theorem sout_A_2 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : cond1_0 i) (hc1 : ¬cond1_1 i) (x0 : Vec F S512x256 .bf16) (x1 x2 : Vec F S8192x256 .bf16) (x3 x4 x5 : Vec F S512x1024 .f32) :
    sout1_A_2 c i arg2 harg2 arg3 harg3 arg4 harg4 arg5 harg5 arg6 harg6 arg7 harg7 arg8 harg8 arg9 harg9 arg10 harg10 arg11 harg11 hc0 hc1 x0 x1 x2 x3 x4 x5 = stepAcc x0 x1 x2 x3 x4 x5 i k1_pay5 k1_pay7 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_run_names
  first | rw [View.canon_cons_unit_zero (S := S512x256) hz] | rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

/-- The last key tile's output block: the numerator it leaves over the denominator it leaves. -/
theorem out_C_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x256 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x256 .f32) (harg11 : arg11.IsWhole) (hc0 : ¬cond1_0 i) (hc1 : cond1_1 i) (x0 : Vec F S512x256 .bf16) (x1 x2 : Vec F S8192x256 .bf16) (x3 x4 x5 : Vec F S512x1024 .f32) (xs0 xs1 : Vec F S512x1 .f32) (xs2 : Vec F S512x256 .f32) :
    out1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay4 (stepAcc x0 x1 x2 x3 x4 x5 i xs0 xs2) (stepL x0 x1 x2 x3 x4 x5 i xs0 xs1) := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S512x1024) hz, View.readCov_unit_zero (S := S512x1) _ hz, View.readCov_unit_zero (S := S512x256) _ hz]
  rfl

end Cert.KernelIdeal.Hand

end
-- ==== Proof.PayIdeal1.lean ====
/-
  The attention kernel's payloads read at an index, over the extended reals.

  Each payload is a short chain of vector operations. At the ideal values every arithmetic operation is the
  extended reals' own, a change of format is the identity, a matrix product read at an index is the sum over the
  contraction coordinate of the operands' products, a row reduction is the sum (or the fold of max) over the row's
  coordinates, a keepdims column [512] → [512,1] reads its row's entry, and a column broadcast to a wider tile reads
  the column's entry of the same row. The three one-step forms at the end say what one key tile does to the running
  maximum, the running denominator and the running numerator of a query row.
-/
import proofs.«137085_j64776696758780_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.PayIdeal

open Idealize.ShloMosaic Idealize.ShloMosaic.ValueIdx Cert.KernelIdeal Cert.KernelIdeal.Gen
open scoped BigOperators

/-! ## The two matrix products at an index -/

theorem qk_lhs_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem qk_lhs_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem qk_rhs_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem qk_rhs_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- Query rows against key rows, both contracted on their second axis: entry (r, k) is the inner product of row r of
    the left operand and row k of the right one. -/
theorem matmul_qk_apply (a : FVec Ideal S512x256 .bf16) (b : FVec Ideal S1024x256 .bf16) (r : Fin 512) (k : Fin 1024) :
    matmul dot_S512x256_S1024x256_S512x1024_1_1_0_0_n_n none a b (constant (F := Ideal) S512x1024 .f32 0x00000000#32) (ix2 r k)
      = (∑ d : Fin 256, a (ix2 r d) * b (ix2 k d) : EReal) := by
  simp only [matmul]
  rw [Ideal.matmul_constant_zero_apply, ← Equiv.sum_comp (contrEquiv1 dot_S512x256_S1024x256_S512x1024_1_1_0_0_n_n 256 rfl rfl).symm]
  refine Finset.sum_congr rfl fun d _ => ?_
  have hd := contrEquiv1_symm_val dot_S512x256_S1024x256_S512x1024_1_1_0_0_n_n 256 rfl rfl d
  have el : dot_S512x256_S1024x256_S512x1024_1_1_0_0_n_n.lhsIdx (ix2 r k) ((contrEquiv1 dot_S512x256_S1024x256_S512x1024_1_1_0_0_n_n 256 rfl rfl).symm d) = ix2 r d := funext fun c => Fin.ext (by
    match c with
    | ⟨0, _⟩ => exact qk_lhs_0 _ _
    | ⟨1, _⟩ => exact (qk_lhs_1 _ _).trans hd)
  have er : dot_S512x256_S1024x256_S512x1024_1_1_0_0_n_n.rhsIdx (ix2 r k) ((contrEquiv1 dot_S512x256_S1024x256_S512x1024_1_1_0_0_n_n 256 rfl rfl).symm d) = ix2 k d := funext fun c => Fin.ext (by
    match c with
    | ⟨0, _⟩ => exact qk_rhs_0 _ _
    | ⟨1, _⟩ => exact (qk_rhs_1 _ _).trans hd)
  rw [el, er]

theorem pv_lhs_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem pv_lhs_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem pv_rhs_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem pv_rhs_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Probability rows against value columns: entry (r, e) is the sum over the key coordinate of the left operand at
    (r, k) times the right one at (k, e). -/
theorem matmul_pv_apply (a : FVec Ideal S512x1024 .bf16) (b : FVec Ideal S1024x256 .bf16) (r : Fin 512) (e : Fin 256) :
    matmul dot_S512x1024_S1024x256_S512x256_1_0_0_1_n_n none a b (constant (F := Ideal) S512x256 .f32 0x00000000#32) (ix2 r e)
      = (∑ k : Fin 1024, a (ix2 r k) * b (ix2 k e) : EReal) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r e) ((contrEquiv1 dot_S512x1024_S1024x256_S512x256_1_0_0_1_n_n 1024 rfl rfl).symm k) = ix2 r k := funext fun c => Fin.ext (by
    match c with
    | ⟨0, _⟩ => exact pv_lhs_0 _ _
    | ⟨1, _⟩ => exact (pv_lhs_1 _ _).trans hk)
  have er : dot_S512x1024_S1024x256_S512x256_1_0_0_1_n_n.rhsIdx (ix2 r e) ((contrEquiv1 dot_S512x1024_S1024x256_S512x256_1_0_0_1_n_n 1024 rfl rfl).symm k) = ix2 k e := funext fun c => Fin.ext (by
    match c with
    | ⟨0, _⟩ => exact (pv_rhs_0 _ _).trans hk
    | ⟨1, _⟩ => exact pv_rhs_1 _ _)
  rw [el, er]

/-! ## The scores -/

/-- The scores of a tile: the inner product of query row r and key row k, times the scale word, plus the three biases
    in their order. -/
theorem pay9_apply (v6 : FVec Ideal S1024x256 .bf16) (v11 : FVec Ideal S512x256 .bf16)
    (v16 v18 v20 : FVec Ideal S512x1024 .f32) (r : Fin 512) (k : Fin 1024) :
    k1_pay9 (F := Ideal) v6 v11 v16 v18 v20 (ix2 r k)
      = ((((∑ d : Fin 256, v11 (ix2 r d) * v6 (ix2 k d) : EReal)) * Ideal.ofBits .f32 0x3D800000#32 + v16 (ix2 r k))
          + v18 (ix2 r k)) + v20 (ix2 r k) := by
  unfold k1_pay9
  simp only [shapeCast_self]
  show (((matmul dot_S512x256_S1024x256_S512x1024_1_1_0_0_n_n none v11 v6
      (constant (F := Ideal) S512x1024 .f32 0x00000000#32) (ix2 r k)) * Ideal.ofBits .f32 0x3D800000#32
        + v16 (ix2 r k)) + v18 (ix2 r k)) + v20 (ix2 r k) = _
  rw [matmul_qk_apply]

/-! ## The neutral words, a keepdims column, a column broadcast, a row read off the reduced index -/

/-- The f32 word of −∞ is the bottom of the extended reals. -/
theorem ofBits_negInf : Ideal.ofBits .f32 0xFF800000#32 = (⊥ : EReal) := by
  simp [Ideal.ofBits, Ideal.ieee]

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a 512 × 1024 tile over row `r` of the reduced shape with column coordinate `k` inserted is (r, k). -/
theorem lift_row (h : S512x1024.Reduces [1] S512) (r : Fin 512) (k : Fin 1024) : h.lift (ix1 r) k = ix2 r k := by
  funext c
  refine Fin.ext ?_
  match c with
  | ⟨0, _⟩ => rfl
  | ⟨1, _⟩ => rfl

/-- A row maximum from the word of −∞: the fold of max from the bottom element over the row's 1024 entries. -/
theorem rowMax_apply (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 1024)).fold max (⊥ : EReal) (fun k => src (ix2 r k)) := by
  refine (Ideal.multiReduction_maximumf_single src _ h hφ hacc (ix1 r)).trans ?_
  show (Finset.univ : Finset (Fin 1024)).fold max (Ideal.ofBits .f32 0xFF800000#32) (fun k => src (h.lift (ix1 r) k)) = _
  rw [ofBits_negInf]
  exact congrArg (fun f => (Finset.univ : Finset (Fin 1024)).fold max (⊥ : EReal) f)
    (funext fun k => congrArg src (lift_row h r k))

/-- A row sum: the sum of the row's 1024 entries. -/
theorem rowSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 1024, src (ix2 r k) := by
  refine (Ideal.multiReduction_add_single src _ h hφ hacc (ix1 r)).trans ?_
  show ∑ k : Fin 1024, src (h.lift (ix1 r) k) = _
  exact Finset.sum_congr rfl fun k _ => congrArg src (lift_row h r k)

/-! ## The tile's maximum against the running one, and the tile's denominator -/

/-- The new running maximum of row r: the old one against the fold of max from −∞ over the tile's scores. -/
theorem pay10_apply (v6 : FVec Ideal S1024x256 .bf16) (v11 : FVec Ideal S512x256 .bf16)
    (v16 v18 v20 : FVec Ideal S512x1024 .f32) (v22 : FVec Ideal S512x1 .f32) (r : Fin 512) :
    k1_pay10 (F := Ideal) v6 v11 v16 v18 v20 v22 (ix2 r 0)
      = max (v22 (ix2 r 0)) ((Finset.univ : Finset (Fin 1024)).fold max (⊥ : EReal)
          (fun k => k1_pay9 (F := Ideal) v6 v11 v16 v18 v20 (ix2 r k))) := by
  unfold k1_pay10
  generalize k1_pay9 (F := Ideal) v6 v11 v16 v18 v20 = S
  refine congrArg (max (v22 (ix2 r 0))) ?_
  refine (shapeCast_a_a1_apply _ _ r 0).trans ?_
  exact rowMax_apply S _ _ _ r

/-- The tile's exponentials summed along row r. -/
theorem pay15_apply (v6 : FVec Ideal S1024x256 .bf16) (v11 : FVec Ideal S512x256 .bf16)
    (v16 v18 v20 : FVec Ideal S512x1024 .f32) (v22 : FVec Ideal S512x1 .f32) (r : Fin 512) :
    k1_pay15 (F := Ideal) v6 v11 v16 v18 v20 v22 (ix1 r)
      = ∑ k : Fin 1024, k1_pay12 (F := Ideal) v6 v11 v16 v18 v20 v22 (ix2 r k) := by
  unfold k1_pay15
  exact rowSum_apply _ _ _ _ r

/-! ## The pointwise payloads -/

/-- The rescaling factor of row r: the exponential of the old running maximum less the new one. -/
theorem pay11_apply (v6 : FVec Ideal S1024x256 .bf16) (v11 : FVec Ideal S512x256 .bf16)
    (v16 v18 v20 : FVec Ideal S512x1024 .f32) (v22 : FVec Ideal S512x1 .f32) (r : Fin 512) :
    k1_pay11 (F := Ideal) v6 v11 v16 v18 v20 v22 (ix2 r 0)
      = Ideal.exp (v22 (ix2 r 0) - k1_pay10 (F := Ideal) v6 v11 v16 v18 v20 v22 (ix2 r 0)) := rfl

/-- The tile's exponentials: each score less its row's new running maximum, exponentiated. -/
theorem pay12_apply (v6 : FVec Ideal S1024x256 .bf16) (v11 : FVec Ideal S512x256 .bf16)
    (v16 v18 v20 : FVec Ideal S512x1024 .f32) (v22 : FVec Ideal S512x1 .f32) (r : Fin 512) (k : Fin 1024) :
    k1_pay12 (F := Ideal) v6 v11 v16 v18 v20 v22 (ix2 r k)
      = Ideal.exp (k1_pay9 (F := Ideal) v6 v11 v16 v18 v20 (ix2 r k)
          - k1_pay10 (F := Ideal) v6 v11 v16 v18 v20 v22 (ix2 r 0)) := by
  unfold k1_pay12
  generalize k1_pay9 (F := Ideal) v6 v11 v16 v18 v20 = S
  generalize k1_pay10 (F := Ideal) v6 v11 v16 v18 v20 v22 = M
  show Ideal.exp (S (ix2 r k) - broadcastTo S512x1024 M broadcasts_S512x1_S512x1024 (ix2 r k)) = _
  rw [broadcastTo_a1_ab_apply]

/-- The narrowing of the tile's exponentials changes nothing. -/
theorem pay13_eq (v6 : FVec Ideal S1024x256 .bf16) (v11 : FVec Ideal S512x256 .bf16)
    (v16 v18 v20 : FVec Ideal S512x1024 .f32) (v22 : FVec Ideal S512x1 .f32) :
    k1_pay13 (F := Ideal) v6 v11 v16 v18 v20 v22 = k1_pay12 (F := Ideal) v6 v11 v16 v18 v20 v22 := rfl

/-- The old running denominator of row r, rescaled. -/
theorem pay14_apply (v6 : FVec Ideal S1024x256 .bf16) (v11 : FVec Ideal S512x256 .bf16)
    (v16 v18 v20 : FVec Ideal S512x1024 .f32) (v22 v32 : FVec Ideal S512x1 .f32) (r : Fin 512) :
    k1_pay14 (F := Ideal) v6 v11 v16 v18 v20 v22 v32 (ix2 r 0)
      = k1_pay11 (F := Ideal) v6 v11 v16 v18 v20 v22 (ix2 r 0) * v32 (ix2 r 0) := rfl

/-- The new running denominator of row r: the rescaled old one plus the tile's. -/
theorem pay1_apply (v33 : FVec Ideal S512x1 .f32) (v35 : FVec Ideal S512 .f32) (r : Fin 512) :
    k1_pay1 (F := Ideal) v33 v35 (ix2 r 0) = v33 (ix2 r 0) + v35 (ix1 r) := by
  unfold k1_pay1
  simp only [shapeCast_self]
  show v33 (ix2 r 0) + shapeCast S512x1 v35 shapeCasts_S512_S512x1 (ix2 r 0) = _
  rw [shapeCast_a_a1_apply]

/-- The new running numerator at (r, e): the rescaled old one plus the tile's probabilities against the values. -/
theorem pay2_apply (v10 : FVec Ideal S1024x256 .bf16) (v27 : FVec Ideal S512x1 .f32) (v31 : FVec Ideal S512x1024 .bf16)
    (v42 : FVec Ideal S512x256 .f32) (r : Fin 512) (e : Fin 256) :
    k1_pay2 (F := Ideal) v10 v27 v31 v42 (ix2 r e)
      = v27 (ix2 r 0) * v42 (ix2 r e) + (∑ k : Fin 1024, v31 (ix2 r k) * v10 (ix2 k e) : EReal) := by
  unfold k1_pay2
  simp only [shapeCast_self]
  show broadcastTo S512x256 v27 broadcasts_S512x1_S512x256 (ix2 r e) * v42 (ix2 r e)
    + matmul dot_S512x1024_S1024x256_S512x256_1_0_0_1_n_n none v31 v10 (constant (F := Ideal) S512x256 .f32 0x00000000#32) (ix2 r e) = _
  rw [broadcastTo_a1_ab_apply, matmul_pv_apply]

/-- A cast to the same shape is the identity: the carried maximum. -/
theorem pay3_eq (v25 : FVec Ideal S512x1 .f32) : k1_pay3 (F := Ideal) v25 = v25 := by
  unfold k1_pay3
  exact shapeCast_self _ _

/-- A cast to the same shape is the identity: the tile of values. -/
theorem pay8_eq (v9 : FVec Ideal S1024x256 .bf16) : k1_pay8 (F := Ideal) v9 = v9 := by
  unfold k1_pay8
  exact shapeCast_self _ _

/-- The output at (r, e): the numerator over the denominator of row r. -/
theorem pay4_apply (v55 : FVec Ideal S512x256 .f32) (v56 : FVec Ideal S512x1 .f32) (r : Fin 512) (e : Fin 256) :
    k1_pay4 (F := Ideal) v55 v56 (ix2 r e) = Ideal.div (v55 (ix2 r e)) (v56 (ix2 r 0)) := by
  unfold k1_pay4
  show Ideal.div (v55 (ix2 r e)) (broadcastTo S512x256 v56 broadcasts_S512x1_S512x256 (ix2 r e)) = _
  rw [broadcastTo_a1_ab_apply]

/-- The running maximum starts from −∞. -/
theorem pay5_apply (r : Fin 512) : k1_pay5 (F := Ideal) (ix2 r 0) = (⊥ : EReal) := by
  unfold k1_pay5
  simp only [shapeCast_self]
  exact ofBits_negInf

/-- The running denominator starts from 0. -/
theorem pay6_apply (r : Fin 512) : k1_pay6 (F := Ideal) (ix2 r 0) = (0 : EReal) := by
  unfold k1_pay6
  simp only [shapeCast_self]
  exact Ideal.ofBits_zero_f32

/-- The running numerator starts from 0. -/
theorem pay7_apply (r : Fin 512) (e : Fin 256) : k1_pay7 (F := Ideal) (ix2 r e) = (0 : EReal) := by
  unfold k1_pay7
  simp only [shapeCast_self]
  exact Ideal.ofBits_zero_f32

/-! ## One key tile, on a query row

With `S k` the tile's score at (r, k) and `T` the fold of max from −∞ over them, the three carried values of row r
after the tile, from those before it (`v22` the running maximum, `v32` the running denominator, `v42` the running
numerator, `v9` the tile of values). -/

/-- The running maximum after the tile. -/
theorem step_m (v6 : FVec Ideal S1024x256 .bf16) (v11 : FVec Ideal S512x256 .bf16)
    (v16 v18 v20 : FVec Ideal S512x1024 .f32) (v22 : FVec Ideal S512x1 .f32) (r : Fin 512) :
    k1_pay3 (F := Ideal) (k1_pay10 (F := Ideal) v6 v11 v16 v18 v20 v22) (ix2 r 0)
      = max (v22 (ix2 r 0)) ((Finset.univ : Finset (Fin 1024)).fold max (⊥ : EReal)
          (fun k => k1_pay9 (F := Ideal) v6 v11 v16 v18 v20 (ix2 r k))) := by
  rw [pay3_eq, pay10_apply]

/-- The running denominator after the tile. -/
theorem step_l (v6 : FVec Ideal S1024x256 .bf16) (v11 : FVec Ideal S512x256 .bf16)
    (v16 v18 v20 : FVec Ideal S512x1024 .f32) (v22 v32 : FVec Ideal S512x1 .f32) (r : Fin 512) :
    k1_pay1 (F := Ideal) (k1_pay14 (F := Ideal) v6 v11 v16 v18 v20 v22 v32)
        (k1_pay15 (F := Ideal) v6 v11 v16 v18 v20 v22) (ix2 r 0)
      = Ideal.exp (v22 (ix2 r 0) - max (v22 (ix2 r 0)) ((Finset.univ : Finset (Fin 1024)).fold max (⊥ : EReal)
            (fun k => k1_pay9 (F := Ideal) v6 v11 v16 v18 v20 (ix2 r k)))) * v32 (ix2 r 0)
        + ∑ k : Fin 1024, Ideal.exp (k1_pay9 (F := Ideal) v6 v11 v16 v18 v20 (ix2 r k)
            - max (v22 (ix2 r 0)) ((Finset.univ : Finset (Fin 1024)).fold max (⊥ : EReal)
                (fun k => k1_pay9 (F := Ideal) v6 v11 v16 v18 v20 (ix2 r k)))) := by
  rw [pay1_apply, pay14_apply, pay11_apply, pay15_apply, pay10_apply]
  refine congrArg (_ + ·) (Finset.sum_congr rfl fun k _ => ?_)
  rw [pay12_apply, pay10_apply]

/-- The running numerator after the tile, at column e. -/
theorem step_acc (v6 v9 : FVec Ideal S1024x256 .bf16) (v11 : FVec Ideal S512x256 .bf16)
    (v16 v18 v20 : FVec Ideal S512x1024 .f32) (v22 : FVec Ideal S512x1 .f32) (v42 : FVec Ideal S512x256 .f32)
    (r : Fin 512) (e : Fin 256) :
    k1_pay2 (F := Ideal) (k1_pay8 (F := Ideal) v9) (k1_pay11 (F := Ideal) v6 v11 v16 v18 v20 v22)
        (k1_pay13 (F := Ideal) v6 v11 v16 v18 v20 v22) v42 (ix2 r e)
      = Ideal.exp (v22 (ix2 r 0) - max (v22 (ix2 r 0)) ((Finset.univ : Finset (Fin 1024)).fold max (⊥ : EReal)
            (fun k => k1_pay9 (F := Ideal) v6 v11 v16 v18 v20 (ix2 r k)))) * v42 (ix2 r e)
        + ∑ k : Fin 1024, Ideal.exp (k1_pay9 (F := Ideal) v6 v11 v16 v18 v20 (ix2 r k)
            - max (v22 (ix2 r 0)) ((Finset.univ : Finset (Fin 1024)).fold max (⊥ : EReal)
                (fun k => k1_pay9 (F := Ideal) v6 v11 v16 v18 v20 (ix2 r k)))) * v9 (ix2 k e) := by
  rw [pay2_apply, pay8_eq, pay13_eq, pay11_apply, pay10_apply]
  refine congrArg (_ + ·) (Finset.sum_congr rfl fun k _ => ?_)
  rw [pay12_apply, pay10_apply]

end Cert.PayIdeal

end
-- ==== Proof.Blocks1.lean ====
/-
  The window arithmetic of the attention region.

  The region runs over a grid of 16 query tiles by 8 key tiles, the key tile the fast coordinate: point t is query
  tile t / 8 and key tile t % 8. A query block is 512 rows of the 8192; a key tile is 1024 of the 8192 columns of a
  score bias, and 1024 of the 8192 rows of the keys and of the values, which are staged whole. So every block's
  element sits in its array at (block index) × (block size) + (coordinate inside the block) on each axis, and the
  block indices are the tile numbers: decided once over the 128 points, then used as arithmetic. The output block of
  query tile q is written back at the last key tile, point 8 q + 7, and the sixteen such blocks cover the rows.
-/
import proofs.«137085_j64776696758780_2_alg».proof.Proof.Gen.KernelIdeal.Launch
import proofs.«137085_j64776696758780_2_alg».proof.Proof.Gen.KernelIdeal.Points
import Idealize.ShloMosaic.Lib.Pipeline.Value
import Idealize.ShloMosaic.Lib.ValueIdx

noncomputable section

namespace Cert.Blocks1

open Cert.KernelIdeal Cert.KernelIdeal.Gen Idealize.ShloMosaic Idealize.ShloMosaic.ValueIdx

variable {F : FTy → Type} [FloatOps F]

/-! ## The tiles of a point -/

/-- The query tile of point t. -/
def qi (t : Fin cfg1.N) : Nat := t.val / 8
/-- The key tile of point t. -/
def ki (t : Fin cfg1.N) : Nat := t.val % 8

theorem qi_lt (t : Fin cfg1.N) : qi t < 16 := by
  have h : t.val < 128 := Nat.lt_of_lt_of_eq t.isLt N_1
  unfold qi; omega
theorem ki_lt (t : Fin cfg1.N) : ki t < 8 := by unfold ki; omega

/-- A row of a query block is a row of the array. -/
theorem row_lt (t : Fin cfg1.N) (r : Fin 512) : qi t * 512 + r.val < 8192 := by
  have := qi_lt t; have := r.isLt; omega
/-- A column of a key tile is a column of the array (and a row of a key tile a row of the keys). -/
theorem col_lt (t : Fin cfg1.N) (k : Fin 1024) : ki t * 1024 + k.val < 8192 := by
  have := ki_lt t; have := k.isLt; omega

/-! ## The coordinates and the block indices, decided over the grid -/

/-- Point t has coordinates (t / 8, t % 8). -/
theorem coords_facts : ∀ t : Fin cfg1.N,
    (grid1.coords t (0 : Fin 2)).val = t.val / 8 ∧ (grid1.coords t (1 : Fin 2)).val = t.val % 8 :=
  (by decide +kernel : ∀ t : Fin grid1.N, _)

/-- The block index of every window at point t, per axis, and the offset of the key tile inside the staged keys. -/
theorem idx_facts : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = t.val % 8
    ∧ win1_5.index t (0 : Fin 2) = t.val / 8 ∧ win1_5.index t (1 : Fin 2) = t.val % 8
    ∧ win1_6.index t (0 : Fin 2) = t.val / 8 ∧ win1_6.index t (1 : Fin 2) = 0
    ∧ k1_off1 (grid1.coords t) (0 : Fin 2) = t.val % 8 * 1024 ∧ k1_off1 (grid1.coords t) (1 : Fin 2) = 0 :=
  (by decide +kernel : ∀ t : Fin grid1.N, _)

/-- The offset of the key tile inside the staged keys, as a function of the axis. -/
theorem off1_eq (t : Fin cfg1.N) : k1_off1 (grid1.coords t) = ![t.val % 8 * 1024, 0] := by
  obtain ⟨_, _, _, _, _, _, _, _, _, _, _, _, _, _, e0, e1⟩ := idx_facts t
  funext a
  match a with
  | ⟨0, _⟩ => exact e0
  | ⟨1, _⟩ => exact e1

/-! ## Block reads -/

/-- The query block at point t, read at (r, d): the array at row (query tile) × 512 + r. -/
theorem read_blk0 (t : Fin cfg1.N) (A : ((cfg1.win 0).blk t).view.ty.Contents (Elt F)) (r : Fin 512) (d : Fin 256) :
    ((cfg1.win 0).blk t).view.read (Elt F) A (ix2 r d) = A (ix2 ⟨qi t * 512 + r.val, row_lt t r⟩ d) := by
  obtain ⟨e0, e1, -⟩ := idx_facts t
  show A (((cfg1.win 0).blk t).view.emb (ix2 r d)) = _
  refine congrArg A (funext fun a => Fin.ext ?_)
  match a with
  | ⟨0, _⟩ => show win1_0.index t (0 : Fin 2) * 512 + 1 * r.val = qi t * 512 + r.val; rw [e0]; unfold qi; omega
  | ⟨1, _⟩ => show win1_0.index t (1 : Fin 2) * 256 + 1 * d.val = d.val; rw [e1]; omega

/-- The staged keys are the whole array: the block at any point, read at (n, d), is the array there. -/
theorem read_blk1 (t : Fin cfg1.N) (A : ((cfg1.win 1).blk t).view.ty.Contents (Elt F)) (n : Fin 8192) (d : Fin 256) :
    ((cfg1.win 1).blk t).view.read (Elt F) A (ix2 n d) = A (ix2 n d) := by
  obtain ⟨-, -, e0, e1, -⟩ := idx_facts t
  show A (((cfg1.win 1).blk t).view.emb (ix2 n d)) = _
  refine congrArg A (funext fun a => Fin.ext ?_)
  match a with
  | ⟨0, _⟩ => show win1_1.index t (0 : Fin 2) * 8192 + 1 * n.val = n.val; rw [e0]; omega
  | ⟨1, _⟩ => show win1_1.index t (1 : Fin 2) * 256 + 1 * d.val = d.val; rw [e1]; omega

/-- The same as an equation of arrays. -/
theorem read_blk1_eq (t : Fin cfg1.N) (A : ((cfg1.win 1).blk t).view.ty.Contents (Elt F)) :
    ((cfg1.win 1).blk t).view.read (Elt F) A = A :=
  funext fun j => by rw [eq_ix2 (n0 := 8192) (n1 := 256) j]; exact read_blk1 t A _ _

/-- The staged values are the whole array. -/
theorem read_blk2 (t : Fin cfg1.N) (A : ((cfg1.win 2).blk t).view.ty.Contents (Elt F)) (n : Fin 8192) (d : Fin 256) :
    ((cfg1.win 2).blk t).view.read (Elt F) A (ix2 n d) = A (ix2 n d) := by
  obtain ⟨-, -, -, -, e0, e1, -⟩ := idx_facts t
  show A (((cfg1.win 2).blk t).view.emb (ix2 n d)) = _
  refine congrArg A (funext fun a => Fin.ext ?_)
  match a with
  | ⟨0, _⟩ => show win1_2.index t (0 : Fin 2) * 8192 + 1 * n.val = n.val; rw [e0]; omega
  | ⟨1, _⟩ => show win1_2.index t (1 : Fin 2) * 256 + 1 * d.val = d.val; rw [e1]; omega

/-- The same as an equation of arrays. -/
theorem read_blk2_eq (t : Fin cfg1.N) (A : ((cfg1.win 2).blk t).view.ty.Contents (Elt F)) :
    ((cfg1.win 2).blk t).view.read (Elt F) A = A :=
  funext fun j => by rw [eq_ix2 (n0 := 8192) (n1 := 256) j]; exact read_blk2 t A _ _

/-- The first score bias's block at point t, read at (r, k): the array at row (query tile) × 512 + r and column
    (key tile) × 1024 + k. -/
theorem read_blk3 (t : Fin cfg1.N) (A : ((cfg1.win 3).blk t).view.ty.Contents (Elt F)) (r : Fin 512) (k : Fin 1024) :
    ((cfg1.win 3).blk t).view.read (Elt F) A (ix2 r k)
      = A (ix2 ⟨qi t * 512 + r.val, row_lt t r⟩ ⟨ki t * 1024 + k.val, col_lt t k⟩) := by
  obtain ⟨-, -, -, -, -, -, e0, e1, -⟩ := idx_facts t
  show A (((cfg1.win 3).blk t).view.emb (ix2 r k)) = _
  refine congrArg A (funext fun a => Fin.ext ?_)
  match a with
  | ⟨0, _⟩ => show win1_3.index t (0 : Fin 2) * 512 + 1 * r.val = qi t * 512 + r.val; rw [e0]; unfold qi; omega
  | ⟨1, _⟩ => show win1_3.index t (1 : Fin 2) * 1024 + 1 * k.val = ki t * 1024 + k.val; rw [e1]; unfold ki; omega

/-- The second score bias's block, likewise. -/
theorem read_blk4 (t : Fin cfg1.N) (A : ((cfg1.win 4).blk t).view.ty.Contents (Elt F)) (r : Fin 512) (k : Fin 1024) :
    ((cfg1.win 4).blk t).view.read (Elt F) A (ix2 r k)
      = A (ix2 ⟨qi t * 512 + r.val, row_lt t r⟩ ⟨ki t * 1024 + k.val, col_lt t k⟩) := by
  obtain ⟨-, -, -, -, -, -, -, -, e0, e1, -⟩ := idx_facts t
  show A (((cfg1.win 4).blk t).view.emb (ix2 r k)) = _
  refine congrArg A (funext fun a => Fin.ext ?_)
  match a with
  | ⟨0, _⟩ => show win1_4.index t (0 : Fin 2) * 512 + 1 * r.val = qi t * 512 + r.val; rw [e0]; unfold qi; omega
  | ⟨1, _⟩ => show win1_4.index t (1 : Fin 2) * 1024 + 1 * k.val = ki t * 1024 + k.val; rw [e1]; unfold ki; omega

/-- The third score bias's block, likewise. -/
theorem read_blk5 (t : Fin cfg1.N) (A : ((cfg1.win 5).blk t).view.ty.Contents (Elt F)) (r : Fin 512) (k : Fin 1024) :
    ((cfg1.win 5).blk t).view.read (Elt F) A (ix2 r k)
      = A (ix2 ⟨qi t * 512 + r.val, row_lt t r⟩ ⟨ki t * 1024 + k.val, col_lt t k⟩) := by
  obtain ⟨-, -, -, -, -, -, -, -, -, -, e0, e1, -⟩ := idx_facts t
  show A (((cfg1.win 5).blk t).view.emb (ix2 r k)) = _
  refine congrArg A (funext fun a => Fin.ext ?_)
  match a with
  | ⟨0, _⟩ => show win1_5.index t (0 : Fin 2) * 512 + 1 * r.val = qi t * 512 + r.val; rw [e0]; unfold qi; omega
  | ⟨1, _⟩ => show win1_5.index t (1 : Fin 2) * 1024 + 1 * k.val = ki t * 1024 + k.val; rw [e1]; unfold ki; omega

/-- The output block at point t, read at (r, e): the array at row (query tile) × 512 + r. -/
theorem read_blk6 (t : Fin cfg1.N) (G : ((cfg1.win 6).blk t).view.ty.Contents (Elt F)) (r : Fin 512) (e : Fin 256) :
    ((cfg1.win 6).blk t).view.read (Elt F) G (ix2 r e) = G (ix2 ⟨qi t * 512 + r.val, row_lt t r⟩ e) := by
  obtain ⟨-, -, -, -, -, -, -, -, -, -, -, -, e0, e1, -⟩ := idx_facts t
  show G (((cfg1.win 6).blk t).view.emb (ix2 r e)) = _
  refine congrArg G (funext fun a => Fin.ext ?_)
  match a with
  | ⟨0, _⟩ => show win1_6.index t (0 : Fin 2) * 512 + 1 * r.val = qi t * 512 + r.val; rw [e0]; unfold qi; omega
  | ⟨1, _⟩ => show win1_6.index t (1 : Fin 2) * 256 + 1 * e.val = e.val; rw [e1]; omega

/-! ## The key tile inside the staged keys -/

/-- The load of the key tile out of the whole staged array, read at (k, d): the array at row (key tile) × 1024 + k. -/
theorem ld_tile (t : Fin cfg1.N) (x : Vec F S8192x256 .bf16) (k : Fin 1024) (d : Fin 256) :
    View.ld x (Rect.unit (s := S8192x256) (k1_off1 (grid1.coords t)) S1024x256.size (k1_off1_inb (grid1.coords t))) (ix2 k d)
      = x (ix2 ⟨ki t * 1024 + k.val, col_lt t k⟩ d) := by
  obtain ⟨-, -, -, -, -, -, -, -, -, -, -, -, -, -, e0, e1⟩ := idx_facts t
  show x ((Rect.unit (s := S8192x256) (k1_off1 (grid1.coords t)) S1024x256.size (k1_off1_inb (grid1.coords t))).emb (ix2 k d)) = _
  refine congrArg x (funext fun a => Fin.ext ?_)
  match a with
  | ⟨0, _⟩ => show k1_off1 (grid1.coords t) (0 : Fin 2) + 1 * k.val = ki t * 1024 + k.val; rw [e0]; unfold ki; omega
  | ⟨1, _⟩ => show k1_off1 (grid1.coords t) (1 : Fin 2) + 1 * d.val = d.val; rw [e1]; omega

/-! ## The output's blocks: membership and cover -/

/-- An index of the output array is in point t's block iff its row is one of the 512 rows of t's query tile. -/
theorem mem_blk6 (t : Fin cfg1.N) (i : S8192x256.Idx) :
    i ∈ ((cfg1.win 6).blk t).view.set ↔ qi t * 512 ≤ (i 0).val ∧ (i 0).val < qi t * 512 + 512 := by
  obtain ⟨-, -, -, -, -, -, -, -, -, -, -, -, e0, e1, -⟩ := idx_facts t
  show i ∈ ((View.whole main_v1).slice (win1_6.rect t)).set ↔ _
  rw [View.set_slice_whole, Rect.mem_set_unit]
  constructor
  · intro h
    have h0 : win1_6.index t (0 : Fin 2) * 512 ≤ (i 0).val ∧ (i 0).val < win1_6.index t (0 : Fin 2) * 512 + 512 := h 0
    rw [e0] at h0; unfold qi; exact h0
  · intro h a
    unfold qi at h
    have h1 : (i 1).val < 256 := (i 1).isLt
    match a with
    | ⟨0, _⟩ => show win1_6.index t (0 : Fin 2) * 512 ≤ (i 0).val ∧ (i 0).val < win1_6.index t (0 : Fin 2) * 512 + 512; rw [e0]; exact h
    | ⟨1, _⟩ => show win1_6.index t (1 : Fin 2) * 256 ≤ (i 1).val ∧ (i 1).val < win1_6.index t (1 : Fin 2) * 256 + 256; rw [e1]; omega

/-- Every index of the output array is in the block of a point that writes its block back: the last key tile of the
    row's query tile. -/
theorem cover6 (i : S8192x256.Idx) :
    ∃ t : Fin cfg1.N, (cfg1.win 6).flush t = true ∧ i ∈ ((cfg1.win 6).blk t).view.set := by
  have hi : (i 0).val < 8192 := (i 0).isLt
  have hN : (i 0).val / 512 * 8 + 7 < cfg1.N := Nat.lt_of_lt_of_eq (by omega) N_1.symm
  refine ⟨⟨(i 0).val / 512 * 8 + 7, hN⟩, (flush1_6 _).mpr (by show ((i 0).val / 512 * 8 + 7) % 8 = 7; omega), ?_⟩
  rw [mem_blk6]
  show ((i 0).val / 512 * 8 + 7) / 8 * 512 ≤ (i 0).val ∧ (i 0).val < ((i 0).val / 512 * 8 + 7) / 8 * 512 + 512
  omega

end Cert.Blocks1

end
-- ==== Proof.KI.Induct1.lean ====
/-
  The carried buffers follow the online-softmax recurrence. At grid point t (query tile t / 8, key tile t mod 8) the score
  tile the body computes is, row by row, the specification's scores of that query row against the tile's 1024 key rows,
  and the value tile is the tile's 1024 rows of V; so one point turns the running maximum, denominator and numerator of
  step (t mod 8) into those of step (t mod 8) + 1, starting from (-inf, 0, 0) at a query tile's first key tile.
-/
import proofs.«137085_j64776696758780_2_alg».proof.Proof.KI.Defs1
import proofs.«137085_j64776696758780_2_alg».proof.Proof.KI.Pieces1
import proofs.«137085_j64776696758780_2_alg».proof.Proof.PayIdeal1
import proofs.«137085_j64776696758780_2_alg».proof.Proof.Blocks1

set_option maxRecDepth 16384

noncomputable section

namespace Cert.KernelIdeal.Hand

open Cert.KernelIdeal Cert.KernelIdeal.Gen Cert.PayIdeal Cert.Blocks1
open Idealize.ShloMosaic Idealize.ShloMosaic.TcCoe Idealize.ShloMosaic.ValueIdx Idealize.SL.Sem

/-- One key tile over variables: if the carried values are the recurrence's at step j and the tile's scores and values
    are the row's at tile j, the body's three stores are the recurrence's at step j + 1. -/
theorem step_vars (S V : ℕ → Fin 1024 → EReal) (j : ℕ) (v6 v9 : FVec Ideal S1024x256 .bf16) (v11 : FVec Ideal S512x256 .bf16)
    (v16 v18 v20 : FVec Ideal S512x1024 .f32) (v22 v32 : FVec Ideal S512x1 .f32) (v42 : FVec Ideal S512x256 .f32)
    (r : Fin 512) (e : Fin 256)
    (hS : S j = fun k => k1_pay9 (F := Ideal) v6 v11 v16 v18 v20 (ix2 r k))
    (hV : V j = fun k => v9 (ix2 k e))
    (hm : Cert.OnlineSoftmax.m S j = v22 (ix2 r 0)) (hl : Cert.OnlineSoftmax.l S j = v32 (ix2 r 0))
    (ha : Cert.OnlineSoftmax.acc S V j = v42 (ix2 r e)) :
    k1_pay3 (F := Ideal) (k1_pay10 (F := Ideal) v6 v11 v16 v18 v20 v22) (ix2 r 0) = Cert.OnlineSoftmax.m S (j + 1)
    ∧ k1_pay1 (F := Ideal) (k1_pay14 (F := Ideal) v6 v11 v16 v18 v20 v22 v32) (k1_pay15 (F := Ideal) v6 v11 v16 v18 v20 v22) (ix2 r 0)
        = Cert.OnlineSoftmax.l S (j + 1)
    ∧ k1_pay2 (F := Ideal) (k1_pay8 (F := Ideal) v9) (k1_pay11 (F := Ideal) v6 v11 v16 v18 v20 v22)
        (k1_pay13 (F := Ideal) v6 v11 v16 v18 v20 v22) v42 (ix2 r e) = Cert.OnlineSoftmax.acc S V (j + 1) := by
  refine ⟨?_, ?_, ?_⟩
  · rw [step_m, Cert.OnlineSoftmax.m_succ, Cert.OnlineSoftmax.tmax_eq_fold, hS, hm]
  · rw [step_l, Cert.OnlineSoftmax.l_succ', Cert.OnlineSoftmax.tmax_eq_fold, hS, hm, hl]
  · rw [step_acc, Cert.OnlineSoftmax.acc_succ', Cert.OnlineSoftmax.tmax_eq_fold, hS, hV, hm, ha]

/-- The score payload over variables: with the query block's row r the array's row n, the key tile's rows and the three
    bias blocks' columns the arrays' at mcol, it is the specification's score of row n against mcol k. -/
theorem score_vars (x0 : FVec Ideal S512x256 .bf16) (v6 : FVec Ideal S1024x256 .bf16) (x3 x4 x5 : FVec Ideal S512x1024 .f32)
    (Q K : S8192x256.Idx → EReal) (spd edge p3d : S8192x8192.Idx → EReal) (n : Fin 8192) (mcol : Fin 1024 → Fin 8192) (r : Fin 512)
    (h0 : ∀ d, x0 (ix2 r d) = Q (ix2 n d)) (h1 : ∀ k d, v6 (ix2 k d) = K (ix2 (mcol k) d))
    (h3 : ∀ k, x3 (ix2 r k) = spd (ix2 n (mcol k))) (h4 : ∀ k, x4 (ix2 r k) = edge (ix2 n (mcol k)))
    (h5 : ∀ k, x5 (ix2 r k) = p3d (ix2 n (mcol k))) (k : Fin 1024) :
    k1_pay9 (F := Ideal) v6 x0 x3 x4 x5 (ix2 r k)
      = Cert.Spec.score (fun n e => Q (ix2 n e)) (fun m e => K (ix2 m e)) spd edge p3d n (mcol k) := by
  rw [pay9_apply]
  unfold Cert.Spec.score
  simp only [h0, h1, h3, h4, h5]

theorem rowN_eq (t : Fin cfg1.N) (r : Fin 512) : rowN (t.val / 8) r = ⟨qi t * 512 + r.val, row_lt t r⟩ := by
  apply Fin.ext
  show (t.val / 8 % 16) * 512 + r.val = t.val / 8 * 512 + r.val
  have h := qi_lt t
  unfold qi at h
  omega
theorem colN_eq (t : Fin cfg1.N) (k : Fin 1024) : colN (t.val % 8) k = ⟨ki t * 1024 + k.val, col_lt t k⟩ := by
  apply Fin.ext
  show (t.val % 8 % 8) * 1024 + k.val = t.val % 8 * 1024 + k.val
  rw [Nat.mod_mod]

section
variable (V : (c : Dev nD) → (b : Ref sig .tc) → Buf (Elt Ideal) ((c : Thread nD τ).loc b)) (c : Dev nD)

/-- The blocks at a point, read as the arrays at the point's rows and columns. -/
theorem blkQ (t : Fin cfg1.N) (r : Fin 512) (d : Fin 256) : iblk1 V c 0 t (ix2 r d) = aQ V c (ix2 (rowN (t.val / 8) r) d) := by
  unfold iblk1; rw [read_blk0, rowN_eq]
theorem blkK (t : Fin cfg1.N) (k : Fin 1024) (d : Fin 256) :
    View.ld (iblk1 V c 1 t) (rK (grid1.coords t)) (ix2 k d) = aK V c (ix2 (colN (t.val % 8) k) d) := by
  rw [ld_tile]; unfold iblk1; rw [read_blk1, colN_eq]
theorem blkV (t : Fin cfg1.N) (k : Fin 1024) (e : Fin 256) :
    View.ld (iblk1 V c 2 t) (rK (grid1.coords t)) (ix2 k e) = aV V c (ix2 (colN (t.val % 8) k) e) := by
  rw [ld_tile]; unfold iblk1; rw [read_blk2, colN_eq]
theorem blkSpd (t : Fin cfg1.N) (r : Fin 512) (k : Fin 1024) :
    iblk1 V c 3 t (ix2 r k) = aSpd V c (ix2 (rowN (t.val / 8) r) (colN (t.val % 8) k)) := by
  unfold iblk1; rw [read_blk3, rowN_eq, colN_eq]
theorem blkEdge (t : Fin cfg1.N) (r : Fin 512) (k : Fin 1024) :
    iblk1 V c 4 t (ix2 r k) = aEdge V c (ix2 (rowN (t.val / 8) r) (colN (t.val % 8) k)) := by
  unfold iblk1; rw [read_blk4, rowN_eq, colN_eq]
theorem blkP3d (t : Fin cfg1.N) (r : Fin 512) (k : Fin 1024) :
    iblk1 V c 5 t (ix2 r k) = aP3d V c (ix2 (rowN (t.val / 8) r) (colN (t.val % 8) k)) := by
  unfold iblk1; rw [read_blk5, rowN_eq, colN_eq]

/-- The point's score tile is its query rows' scores at key tile (t mod 8); its value tile the values there. -/
theorem tile_S (t : Fin cfg1.N) (r : Fin 512) :
    Srow V c (rowN (t.val / 8) r) (t.val % 8)
      = fun k => k1_pay9 (F := Ideal) (View.ld (iblk1 V c 1 t) (rK (grid1.coords t))) (iblk1 V c 0 t) (iblk1 V c 3 t) (iblk1 V c 4 t) (iblk1 V c 5 t) (ix2 r k) := by
  funext k
  exact (score_vars (iblk1 V c 0 t) (View.ld (iblk1 V c 1 t) (rK (grid1.coords t))) (iblk1 V c 3 t) (iblk1 V c 4 t) (iblk1 V c 5 t)
    (aQ V c) (aK V c) (aSpd V c) (aEdge V c) (aP3d V c) (rowN (t.val / 8) r) (colN (t.val % 8)) r
    (blkQ V c t r) (blkK V c t) (blkSpd V c t r) (blkEdge V c t r) (blkP3d V c t r) k).symm
theorem tile_V (t : Fin cfg1.N) (e : Fin 256) :
    Vcol V c e (t.val % 8) = fun k => View.ld (iblk1 V c 2 t) (rK (grid1.coords t)) (ix2 k e) := by
  funext k
  exact (blkV V c t k e).symm

/-- One grid point: from the recurrence's values at step (t mod 8) in the carried buffers to its values at the next step. -/
theorem step_point (t : Fin cfg1.N) (r : Fin 512) (e : Fin 256) (s0 s1 : FVec Ideal S512x1 .f32) (s2 : FVec Ideal S512x256 .f32)
    (hm : Cert.OnlineSoftmax.m (Srow V c (rowN (t.val / 8) r)) (t.val % 8) = s0 (ix2 r 0))
    (hl : Cert.OnlineSoftmax.l (Srow V c (rowN (t.val / 8) r)) (t.val % 8) = s1 (ix2 r 0))
    (ha : Cert.OnlineSoftmax.acc (Srow V c (rowN (t.val / 8) r)) (Vcol V c e) (t.val % 8) = s2 (ix2 r e)) :
    stepM (iblk1 V c 0 t) (iblk1 V c 1 t) (iblk1 V c 2 t) (iblk1 V c 3 t) (iblk1 V c 4 t) (iblk1 V c 5 t) (grid1.coords t) s0 (ix2 r 0) = Cert.OnlineSoftmax.m (Srow V c (rowN (t.val / 8) r)) (t.val % 8 + 1)
    ∧ stepL (iblk1 V c 0 t) (iblk1 V c 1 t) (iblk1 V c 2 t) (iblk1 V c 3 t) (iblk1 V c 4 t) (iblk1 V c 5 t) (grid1.coords t) s0 s1 (ix2 r 0) = Cert.OnlineSoftmax.l (Srow V c (rowN (t.val / 8) r)) (t.val % 8 + 1)
    ∧ stepAcc (iblk1 V c 0 t) (iblk1 V c 1 t) (iblk1 V c 2 t) (iblk1 V c 3 t) (iblk1 V c 4 t) (iblk1 V c 5 t) (grid1.coords t) s0 s2 (ix2 r e) = Cert.OnlineSoftmax.acc (Srow V c (rowN (t.val / 8) r)) (Vcol V c e) (t.val % 8 + 1) := by
  unfold stepM stepL stepAcc
  exact step_vars (Srow V c (rowN (t.val / 8) r)) (Vcol V c e) (t.val % 8)
    (View.ld (iblk1 V c 1 t) (rK (grid1.coords t))) (View.ld (iblk1 V c 2 t) (rK (grid1.coords t))) (iblk1 V c 0 t)
    (iblk1 V c 3 t) (iblk1 V c 4 t) (iblk1 V c 5 t) s0 s1 s2 r e (tile_S V c t r) (tile_V V c t e) hm hl ha

/-- A query tile's first key tile: the recurrence's first step from the reset values. -/
theorem carried_A (t : Fin cfg1.N) (h0 : t.val % 8 = 0) (r : Fin 512) (e : Fin 256) :
    (outsAt1 V c t.val t.isLt).2.1 (ix2 r 0) = Cert.OnlineSoftmax.m (Srow V c (rowN (t.val / 8) r)) (t.val % 8 + 1)
    ∧ (outsAt1 V c t.val t.isLt).2.2.1 (ix2 r 0) = Cert.OnlineSoftmax.l (Srow V c (rowN (t.val / 8) r)) (t.val % 8 + 1)
    ∧ (outsAt1 V c t.val t.isLt).2.2.2 (ix2 r e) = Cert.OnlineSoftmax.acc (Srow V c (rowN (t.val / 8) r)) (Vcol V c e) (t.val % 8 + 1) := by
  have h1 : ¬t.val % 8 = 7 := by omega
  rw [outsAt1_A V c t h0 h1]
  dsimp only
  rw [sout_A_0, sout_A_1, sout_A_2]
  refine step_point V c t r e k1_pay5 k1_pay6 k1_pay7 ?_ ?_ ?_
  · rw [h0]; exact (pay5_apply r).symm
  · rw [h0]; exact (pay6_apply r).symm
  · rw [h0]; exact (pay7_apply r e).symm

/-- Any later key tile: one step from what the point before left. -/
theorem carried_BC (t : Fin cfg1.N) (h0 : ¬t.val % 8 = 0)
    (ih : ∀ (r : Fin 512) (e : Fin 256),
      (outsAt1 V c (t.val - 1) (Nat.lt_of_le_of_lt (Nat.sub_le _ _) t.isLt)).2.1 (ix2 r 0) = Cert.OnlineSoftmax.m (Srow V c (rowN ((t.val - 1) / 8) r)) ((t.val - 1) % 8 + 1)
      ∧ (outsAt1 V c (t.val - 1) (Nat.lt_of_le_of_lt (Nat.sub_le _ _) t.isLt)).2.2.1 (ix2 r 0) = Cert.OnlineSoftmax.l (Srow V c (rowN ((t.val - 1) / 8) r)) ((t.val - 1) % 8 + 1)
      ∧ (outsAt1 V c (t.val - 1) (Nat.lt_of_le_of_lt (Nat.sub_le _ _) t.isLt)).2.2.2 (ix2 r e) = Cert.OnlineSoftmax.acc (Srow V c (rowN ((t.val - 1) / 8) r)) (Vcol V c e) ((t.val - 1) % 8 + 1))
    (r : Fin 512) (e : Fin 256) :
    (outsAt1 V c t.val t.isLt).2.1 (ix2 r 0) = Cert.OnlineSoftmax.m (Srow V c (rowN (t.val / 8) r)) (t.val % 8 + 1)
    ∧ (outsAt1 V c t.val t.isLt).2.2.1 (ix2 r 0) = Cert.OnlineSoftmax.l (Srow V c (rowN (t.val / 8) r)) (t.val % 8 + 1)
    ∧ (outsAt1 V c t.val t.isLt).2.2.2 (ix2 r e) = Cert.OnlineSoftmax.acc (Srow V c (rowN (t.val / 8) r)) (Vcol V c e) (t.val % 8 + 1) := by
  have hq : (t.val - 1) / 8 = t.val / 8 := by omega
  have hj : (t.val - 1) % 8 + 1 = t.val % 8 := by omega
  obtain ⟨im, il, ia⟩ := ih r e
  rw [hq, hj] at im il ia
  by_cases h1 : t.val % 8 = 7
  · rw [outsAt1_C V c t h0 h1]
    dsimp only
    rw [sout_C_0, sout_C_1, sout_C_2]
    exact step_point V c t r e _ _ _ im.symm il.symm ia.symm
  · rw [outsAt1_B V c t h0 h1]
    dsimp only
    rw [sout_B_0, sout_B_1, sout_B_2]
    exact step_point V c t r e _ _ _ im.symm il.symm ia.symm

/-- The carried buffers hold the recurrence at every grid point. -/
theorem carried : Carried V c := by
  intro n
  induction n with
  | zero => intro h r e; exact carried_A V c ⟨0, h⟩ rfl r e
  | succ n ih =>
    intro h r e
    by_cases h0 : (n + 1) % 8 = 0
    · exact carried_A V c ⟨n + 1, h⟩ h0 r e
    · exact carried_BC V c ⟨n + 1, h⟩ h0 (fun r e => ih (Nat.lt_of_succ_lt h) r e) r e

end

end Cert.KernelIdeal.Hand

end
-- ==== Proof.RealClosure.lean ====
/-
  Closure of the real numbers inside the extended reals.

  An extended real is REAL when it is the image of a real number, equivalently when it is neither `⊥` nor `⊤`,
  equivalently when its absolute value `max x (-x)` is below `⊤`. Sums, differences, products, negations,
  maxima, finite sums, finite maxima over a nonempty set, exponentials and quotients by a nonzero real of real
  elements are real; a family of real elements is the image of a family of real numbers.
-/
import Mathlib
import Idealize.ShloMosaic.PureOps.Ideal
import proofs.«137085_j64776696758780_2_alg».proof.Proof.LibERealFin

namespace Cert.RealClosure

open Finset Idealize.ShloMosaic

/-- An extended real that is (the image of) a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- Real means neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

/-- A real element is the image of its real part. -/
theorem IsReal.eq_coe_toReal {x : EReal} (h : IsReal x) : x = ((x.toReal : ℝ) : EReal) := by
  obtain ⟨r, rfl⟩ := h
  rw [EReal.toReal_coe]

/-- An element whose absolute value `max x (-x)` is below `⊤` is real. -/
theorem isReal_of_abs_lt_top {x : EReal} (h : max x (-x) < ⊤) : IsReal x := by
  rw [isReal_iff]
  refine ⟨?_, ?_⟩
  · rintro rfl
    rw [EReal.neg_bot] at h
    exact absurd h (not_lt.mpr (le_max_right _ _))
  · rintro rfl
    exact absurd h (not_lt.mpr (le_max_left _ _))

/-- A family of real elements is the image of a family of real numbers. -/
theorem exists_real_family {ι : Sort*} (f : ι → EReal) (h : ∀ i, IsReal (f i)) :
    ∃ g : ι → ℝ, ∀ i, f i = ((g i : ℝ) : EReal) :=
  ⟨fun i => (f i).toReal, fun i => (h i).eq_coe_toReal⟩

theorem IsReal.add {x y : EReal} (hx : IsReal x) (hy : IsReal y) : IsReal (x + y) := by
  obtain ⟨a, rfl⟩ := hx; obtain ⟨b, rfl⟩ := hy
  exact ⟨a + b, Cert.LibERealFin.add_coe a b⟩

theorem IsReal.sub {x y : EReal} (hx : IsReal x) (hy : IsReal y) : IsReal (x - y) := by
  obtain ⟨a, rfl⟩ := hx; obtain ⟨b, rfl⟩ := hy
  exact ⟨a - b, Cert.LibERealFin.sub_coe a b⟩

theorem IsReal.mul {x y : EReal} (hx : IsReal x) (hy : IsReal y) : IsReal (x * y) := by
  obtain ⟨a, rfl⟩ := hx; obtain ⟨b, rfl⟩ := hy
  exact ⟨a * b, Cert.LibERealFin.mul_coe a b⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, Cert.LibERealFin.max_coe a b⟩

theorem IsReal.exp {x : EReal} (hx : IsReal x) : IsReal (Ideal.exp x) := by
  obtain ⟨a, rfl⟩ := hx
  exact ⟨Real.exp a, rfl⟩

/-- The quotient of a real element by a nonzero real element is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun hb => h0 (by rw [hb, EReal.coe_zero])
  exact ⟨a / b, Cert.LibERealFin.div_coe_coe a hb⟩

/-- A finite sum of real elements is real. -/
theorem IsReal.sum {ι : Type*} (s : Finset ι) (f : ι → EReal) (h : ∀ i ∈ s, IsReal (f i)) :
    IsReal (∑ i ∈ s, f i) := by
  refine ⟨∑ i ∈ s, (f i).toReal, ?_⟩
  rw [← Cert.LibERealFin.coe_sum]
  exact Finset.sum_congr rfl fun i hi => (h i hi).eq_coe_toReal

/-- A sum of real elements over a finite type is real. -/
theorem isReal_sum_univ {ι : Type*} [Fintype ι] (f : ι → EReal) (h : ∀ i, IsReal (f i)) :
    IsReal (∑ i, f i) :=
  IsReal.sum Finset.univ f fun i _ => h i

/-- The fold of `max` from `⊥` over a nonempty finite family of real elements is real. -/
theorem isReal_fold_max {ι : Type*} (s : Finset ι) (hs : s.Nonempty) (f : ι → EReal)
    (h : ∀ i ∈ s, IsReal (f i)) : IsReal (s.fold Max.max (⊥ : EReal) f) := by
  refine ⟨s.sup' hs fun i => (f i).toReal, ?_⟩
  rw [← Cert.LibERealFin.fold_max_coe s hs fun i => (f i).toReal]
  exact Finset.fold_congr fun i hi => (h i hi).eq_coe_toReal

/-- A finite sum of products of real numbers, taken in the extended reals, is the real sum of products. -/
theorem sum_mul_coe {ι : Type*} (s : Finset ι) (f g : ι → ℝ) :
    (∑ i ∈ s, ((f i : ℝ) : EReal) * ((g i : ℝ) : EReal)) = ((∑ i ∈ s, f i * g i : ℝ) : EReal) := by
  rw [← Cert.LibERealFin.coe_sum]
  exact Finset.sum_congr rfl fun i _ => Cert.LibERealFin.mul_coe _ _

/-- The same over a finite type. -/
theorem sum_mul_coe_univ {ι : Type*} [Fintype ι] (f g : ι → ℝ) :
    (∑ i, ((f i : ℝ) : EReal) * ((g i : ℝ) : EReal)) = ((∑ i, f i * g i : ℝ) : EReal) :=
  sum_mul_coe Finset.univ f g

/-- A real constant times a finite sum of real numbers. -/
theorem coe_mul_sum {ι : Type*} (s : Finset ι) (c : ℝ) (f : ι → ℝ) :
    (c : EReal) * (∑ i ∈ s, ((f i : ℝ) : EReal)) = ((c * ∑ i ∈ s, f i : ℝ) : EReal) := by
  rw [Cert.LibERealFin.coe_sum, Cert.LibERealFin.mul_coe]

/-- A finite sum of real numbers times a real constant. -/
theorem sum_mul_coe_const {ι : Type*} (s : Finset ι) (f : ι → ℝ) (c : ℝ) :
    (∑ i ∈ s, ((f i : ℝ) : EReal)) * (c : EReal) = (((∑ i ∈ s, f i) * c : ℝ) : EReal) := by
  rw [Cert.LibERealFin.coe_sum, Cert.LibERealFin.mul_coe]

/-- Zero plus a sum of products of real elements is real: the shape of a matrix product into a zero
    accumulator, read at one output entry. -/
theorem isReal_zero_add_sum_mul {ι : Type*} [Fintype ι] (f g : ι → EReal)
    (hf : ∀ i, IsReal (f i)) (hg : ∀ i, IsReal (g i)) : IsReal (0 + ∑ i, f i * g i) :=
  isReal_zero.add (isReal_sum_univ _ fun i => (hf i).mul (hg i))

end Cert.RealClosure
-- ==== Proof.Bridge.lean ====
/-
  The online recurrence over eight key tiles of 1024 columns equals the specification's result entry.

  Column `m` of a row of 8192 scores is column `k` of tile `j` for `m = 1024 · j + k`; this is a bijection
  between pairs (tile, column in tile) and columns, so a sum over the 8192 columns is the double sum over tiles
  and columns in a tile. The specification's row maximum is a real number when the row's scores are, and the
  online recurrence's quotient equals the two-pass softmax quotient at any real shift, in particular at that one.
-/
import Mathlib
import Idealize.ShloMosaic.PureOps.Ideal
import proofs.«137085_j64776696758780_2_alg».proof.Proof.LibERealFin
import proofs.«137085_j64776696758780_2_alg».proof.Proof.Spec
import proofs.«137085_j64776696758780_2_alg».proof.Proof.OnlineSoftmax
import proofs.«137085_j64776696758780_2_alg».proof.Proof.RealClosure

namespace Cert.Bridge

open Finset Idealize.ShloMosaic Cert.RealClosure

/-- The column of key tile `j` (of 8) and in-tile column `k` (of 1024). -/
def col (j : Fin 8) (k : Fin 1024) : Fin 8192 := ⟨j.val * 1024 + k.val, by omega⟩

theorem col_val (j : Fin 8) (k : Fin 1024) : (col j k).val = j.val * 1024 + k.val := rfl

/-- Pairs (tile, column in tile) are the columns. -/
def colEquiv : Fin 8 × Fin 1024 ≃ Fin 8192 where
  toFun p := col p.1 p.2
  invFun c := (⟨c.val / 1024, by have := c.isLt; omega⟩, ⟨c.val % 1024, by omega⟩)
  left_inv := by
    rintro ⟨j, k⟩
    have hj := j.isLt
    have hk := k.isLt
    refine Prod.ext (Fin.ext ?_) (Fin.ext ?_)
    · show (j.val * 1024 + k.val) / 1024 = j.val
      omega
    · show (j.val * 1024 + k.val) % 1024 = k.val
      omega
  right_inv := by
    intro c
    refine Fin.ext ?_
    show c.val / 1024 * 1024 + c.val % 1024 = c.val
    omega

theorem colEquiv_apply (p : Fin 8 × Fin 1024) : colEquiv p = col p.1 p.2 := rfl

/-- A sum over the 8192 columns is the sum over the tiles of the sums over each tile's columns. -/
theorem sum_col {β : Type*} [AddCommMonoid β] (f : Fin 8192 → β) :
    ∑ c : Fin 8192, f c = ∑ j : Fin 8, ∑ k : Fin 1024, f (col j k) := by
  rw [← Equiv.sum_comp colEquiv f, Fintype.sum_prod_type]
  rfl

/-- The specification's row maximum of a row of real scores is real. -/
theorem isReal_rowMax (s : Fin 8192 → Fin 8192 → EReal) (hs : ∀ n m, IsReal (s n m)) (n : Fin 8192) :
    IsReal (Cert.Spec.rowMax s n) := by
  rw [Cert.Spec.rowMax_eq_sup, ← Cert.LibERealFin.fold_max_eq_sup]
  exact isReal_fold_max _ Finset.univ_nonempty _ fun m _ => hs n m

/-- The online recurrence over the eight tiles of row `n`, against column `e` of the values, is the
    specification's result at `(n, e)`. -/
theorem online_eq_out (s : Fin 8192 → Fin 8192 → EReal) (V : Fin 8192 → Fin 256 → EReal)
    (hs : ∀ n m, IsReal (s n m)) (hV : ∀ m e, IsReal (V m e)) (n : Fin 8192) (e : Fin 256)
    (S V' : ℕ → Fin 1024 → EReal)
    (hS : ∀ (j : ℕ) (h : j < 8) k, S j k = s n (col ⟨j, h⟩ k))
    (hV' : ∀ (j : ℕ) (h : j < 8) k, V' j k = V (col ⟨j, h⟩ k) e) :
    Ideal.div (Cert.OnlineSoftmax.acc S V' 8) (Cert.OnlineSoftmax.l S 8) = Cert.Spec.out s V n e := by
  obtain ⟨M, hM⟩ := isReal_rowMax s hs n
  have hSr : ∀ j, j < 8 → ∀ k, S j k = (((S j k).toReal : ℝ) : EReal) := fun j hj k =>
    IsReal.eq_coe_toReal (by rw [hS j hj k]; exact hs n _)
  have hVr : ∀ j, j < 8 → ∀ k, V' j k = (((V' j k).toReal : ℝ) : EReal) := fun j hj k =>
    IsReal.eq_coe_toReal (by rw [hV' j hj k]; exact hV _ e)
  rw [Cert.OnlineSoftmax.online_softmax_fin 8 (by norm_num) (by norm_num) S V' _ _ hSr hVr M]
  have e1 : ∀ (j : Fin 8) (k : Fin 1024), S j k = s n (col j k) := fun j k => hS j.val j.isLt k
  have e2 : ∀ (j : Fin 8) (k : Fin 1024), V' j k = V (col j k) e := fun j k => hV' j.val j.isLt k
  simp only [e1, e2]
  unfold Cert.Spec.out
  rw [Cert.Spec.den_eq_sum]
  simp only [Cert.Spec.ex, hM]
  rw [sum_col (fun m' => Ideal.exp (s n m' - (M : EReal)))]
  exact (sum_col (fun m => Ideal.div (Ideal.exp (s n m - (M : EReal)))
    (∑ j' : Fin 8, ∑ k' : Fin 1024, Ideal.exp (s n (col j' k') - (M : EReal))) * V m e)).symm

end Cert.Bridge
-- ==== Proof.Final1.lean ====
/-
  The attention region's write-back: the output array after the region is the specification's result, index by index.

  The output block of a query tile is written back at the tile's last key tile. There the block is, entry by entry,
  the carried numerator divided by the carried denominator of its row; by hypothesis these are the online-softmax
  recurrence's numerator and denominator of that row's scores after all eight key tiles, and that quotient is the
  specification's result entry when the scores and the values are real. The sixteen blocks written back cover the array.
-/
import proofs.«137085_j64776696758780_2_alg».proof.Proof.KI.Defs1
import proofs.«137085_j64776696758780_2_alg».proof.Proof.KI.Pieces1
import proofs.«137085_j64776696758780_2_alg».proof.Proof.Blocks1
import proofs.«137085_j64776696758780_2_alg».proof.Proof.PayIdeal1
import proofs.«137085_j64776696758780_2_alg».proof.Proof.Bridge
import proofs.«137085_j64776696758780_2_alg».proof.Proof.RealClosure
import Idealize.ShloMosaic.Lib.Pipeline.Value
import Idealize.ShloMosaic.Lib.ValueIdx

set_option maxRecDepth 16384

noncomputable section

namespace Cert.Final1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.RealClosure

variable (V : (c : Dev nD) → (b : Ref sig .tc) → Buf (Elt Ideal) ((c : Thread nD τ).loc b)) (c : Dev nD)

/-- A column of key tile `j < 8`, in the two spellings. -/
theorem colN_eq (j : ℕ) (h : j < 8) (k : Fin 1024) : colN j k = Cert.Bridge.col ⟨j, h⟩ k :=
  Fin.ext (by show (j % 8) * 1024 + k.val = j * 1024 + k.val; rw [Nat.mod_eq_of_lt h])

/-- A row of the query tile of point `t`, in the two spellings. -/
theorem rowN_eq (t : Fin cfg1.N) (r : Fin 512) :
    rowN (t.val / 8) r = ⟨Cert.Blocks1.qi t * 512 + r.val, Cert.Blocks1.row_lt t r⟩ :=
  Fin.ext (by
    have h := Cert.Blocks1.qi_lt t
    unfold Cert.Blocks1.qi at h ⊢
    show (t.val / 8 % 16) * 512 + r.val = t.val / 8 * 512 + r.val
    rw [Nat.mod_eq_of_lt h])

/-- At a last key tile the output's staging buffer is the payload of the carried numerator and denominator the
    point leaves. -/
theorem out_div (t : Fin cfg1.N) (h0 : ¬t.val % 8 = 0) (h7 : t.val % 8 = 7) :
    (outsAt1 V c t.val t.isLt).1
      = k1_pay4 (outsAt1 V c t.val t.isLt).2.2.2 (outsAt1 V c t.val t.isLt).2.2.1 := by
  have e := outsAt1_C V c t h0 h7
  rw [e]
  dsimp only
  rw [out_C_6, sout_C_2, sout_C_1]

/-- What the output array ends holding. -/
abbrev G : S8192x256.Idx → EReal := fun i => Cert.Spec.out (sc V c) (vv V c) (i 0) (i 1)

/-- A point that writes its block back writes block `t` of that function. -/
theorem flushed_eq (hs : ∀ n m', IsReal (sc V c n m')) (hv : ∀ m' e, IsReal (vv V c m' e)) (hcar : Carried V c)
    (t : Fin cfg1.N) (hf : (cfg1.win 6).flush t = true) :
    (dat1 V c).flushed 6 t = ((cfg1.win 6).blk t).view.read (Elt Ideal) (G V c) := by
  have h7 : t.val % 8 = 7 := (flush1_6 t).mp hf
  have h0 : ¬t.val % 8 = 0 := by omega
  show (cfg1.win 6).cut (grid1.coords t) ((dat1 V c).after 6 t) = _
  rw [after1_6, out_div V c t h0 h7]
  funext y
  obtain ⟨r, e, rfl⟩ : ∃ (r : Fin 512) (e : Fin 256), y = ix2 r e := ⟨y 0, y 1, eq_ix2 (n0 := 512) (n1 := 256) y⟩
  rw [Cert.Blocks1.read_blk6]
  show k1_pay4 (F := Ideal) (outsAt1 V c t.val t.isLt).2.2.2 (outsAt1 V c t.val t.isLt).2.2.1 (ix2 r e) = _
  rw [Cert.PayIdeal.pay4_apply, (hcar t.val t.isLt r e).2.2, (hcar t.val t.isLt r e).2.1, h7]
  show Ideal.div (Cert.OnlineSoftmax.acc (Srow V c (rowN (t.val / 8) r)) (Vcol V c e) 8)
      (Cert.OnlineSoftmax.l (Srow V c (rowN (t.val / 8) r)) 8)
    = Cert.Spec.out (sc V c) (vv V c) ⟨Cert.Blocks1.qi t * 512 + r.val, Cert.Blocks1.row_lt t r⟩ e
  rw [← rowN_eq t r]
  exact Cert.Bridge.online_eq_out (sc V c) (vv V c) hs hv (rowN (t.val / 8) r) e _ _
    (fun j h k => congrArg (sc V c (rowN (t.val / 8) r)) (colN_eq j h k))
    (fun j h k => congrArg (fun m' => vv V c m' e) (colN_eq j h k))

/-- THE OUTPUT ARRAY after the region: the specification's result at every index. -/
theorem final1_6 (hs : ∀ n m', IsReal (sc V c n m')) (hv : ∀ m' e, IsReal (vv V c m' e)) (hcar : Carried V c) :
    (dat1 V c).arrAt 6 cfg1.N = (fun i => Cert.Spec.out (sc V c) (vv V c) (i 0) (i 1) : S8192x256.Idx → EReal) :=
  (dat1 V c).arrAt_eq_of_cover 6 (G V c) (fun t hf => flushed_eq V c hs hv hcar t hf) (fun i => Cert.Blocks1.cover6 i)

end Cert.Final1

end
-- ==== Proof.Value0.lean ====
/-
  The projection region's value: each of its three output arrays, after the region, is one projection of the biased
  features, index by index.

  The region's grid has four points; point `t` stages rows `2048·t … 2048·t + 2047` of the three feature arrays and the
  three whole weight matrices, and writes back rows `2048·t …` of each output. The body's payload for an output, read
  at row `r` and column `e` of the block, is the sum over `d` of (x + pd + p3) at (r, d) times the weight at (d, e):
  a change of float format is the identity and the matrix product into a zero accumulator is the plain sum. Each
  input block read at a block index is the argument array read at the block's offset plus that index, so the block
  a point writes back is the restriction of one whole-array function to the point's rows; the four blocks cover the
  array.
-/
import proofs.«137085_j64776696758780_2_alg».proof.Proof.KI.Data0
import proofs.«137085_j64776696758780_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Value0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The payload at an index -/

theorem lhs_0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem rhs_0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem rhs_1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The block product into the zero accumulator, at row `r` and column `e`: the sum over the contracted axis. -/
theorem matmul0_apply (a : FVec Ideal S2048x256 .bf16) (b : FVec Ideal S256x256 .bf16) (r : Fin 2048) (e : Fin 256) :
    matmul dot_S2048x256_S256x256_S2048x256_1_0_0_1_n_n none a b (constant S2048x256 .f32 0x00000000#32) (ix2 r e)
      = ∑ d : Fin 256, a (ix2 r d) * b (ix2 d e) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r e) ((contrEquiv1 dot_S2048x256_S256x256_S2048x256_1_0_0_1_n_n 256 rfl rfl).symm k) = ix2 r k := funext fun a => Fin.ext (by
    match a with
    | ⟨0, _⟩ => exact lhs_0 _ _
    | ⟨1, _⟩ => exact (lhs_1 _ _).trans hk)
  have er : dot_S2048x256_S256x256_S2048x256_1_0_0_1_n_n.rhsIdx (ix2 r e) ((contrEquiv1 dot_S2048x256_S256x256_S2048x256_1_0_0_1_n_n 256 rfl rfl).symm k) = ix2 k e := funext fun a => Fin.ext (by
    match a with
    | ⟨0, _⟩ => exact (rhs_0 _ _).trans hk
    | ⟨1, _⟩ => exact rhs_1 _ _)
  rw [el, er]

/-- The three payloads at row `r` and column `e` of the block. -/
theorem pay2_apply (v0 v1 v3 : Vec Ideal S2048x256 .f32) (v6 : Vec Ideal S256x256 .f32) (r : Fin 2048) (e : Fin 256) :
    k0_pay2 v0 v1 v3 v6 (ix2 r e)
      = ∑ d : Fin 256, (v0 (ix2 r d) + v1 (ix2 r d) + v3 (ix2 r d)) * v6 (ix2 d e) :=
  matmul0_apply (fun j => v0 j + v1 j + v3 j) v6 r e
theorem pay3_apply (v0 v1 v3 : Vec Ideal S2048x256 .f32) (v8 : Vec Ideal S256x256 .f32) (r : Fin 2048) (e : Fin 256) :
    k0_pay3 v0 v1 v3 v8 (ix2 r e)
      = ∑ d : Fin 256, (v0 (ix2 r d) + v1 (ix2 r d) + v3 (ix2 r d)) * v8 (ix2 d e) :=
  matmul0_apply (fun j => v0 j + v1 j + v3 j) v8 r e
theorem pay4_apply (v0 v1 v3 : Vec Ideal S2048x256 .f32) (v10 : Vec Ideal S256x256 .f32) (r : Fin 2048) (e : Fin 256) :
    k0_pay4 v0 v1 v3 v10 (ix2 r e)
      = ∑ d : Fin 256, (v0 (ix2 r d) + v1 (ix2 r d) + v3 (ix2 r d)) * v10 (ix2 d e) :=
  matmul0_apply (fun j => v0 j + v1 j + v3 j) v10 r e

/-- One entry of a point's block against one entry of the whole-array function: the point's block is rows
    `2048·T …` of the feature arrays and the whole weight matrix. -/
theorem point_apply (pay : Vec Ideal S2048x256 .f32 → Vec Ideal S2048x256 .f32 → Vec Ideal S2048x256 .f32 →
      Vec Ideal S256x256 .f32 → FVec Ideal S2048x256 .bf16)
    (hpay : ∀ v0 v1 v3 v6 (r : Fin 2048) (e : Fin 256), pay v0 v1 v3 v6 (ix2 r e)
      = ∑ d : Fin 256, (v0 (ix2 r d) + v1 (ix2 r d) + v3 (ix2 r d)) * v6 (ix2 d e))
    (x0 x1 x2 : Vec Ideal S2048x256 .f32) (x3 : Vec Ideal S256x256 .f32)
    (A0 A1 A2 : S8192x256.Idx → EReal) (A3 : S256x256.Idx → EReal) (T : ℕ)
    (h0 : ∀ (y : S2048x256.Idx) (k : S8192x256.Idx), (k 0).val = T * 2048 + (y 0).val → (k 1).val = (y 1).val → x0 y = A0 k)
    (h1 : ∀ (y : S2048x256.Idx) (k : S8192x256.Idx), (k 0).val = T * 2048 + (y 0).val → (k 1).val = (y 1).val → x1 y = A1 k)
    (h2 : ∀ (y : S2048x256.Idx) (k : S8192x256.Idx), (k 0).val = T * 2048 + (y 0).val → (k 1).val = (y 1).val → x2 y = A2 k)
    (h3 : ∀ (y k : S256x256.Idx), (k 0).val = (y 0).val → (k 1).val = (y 1).val → x3 y = A3 k)
    (j : S2048x256.Idx) (i : S8192x256.Idx) (hi0 : (i 0).val = T * 2048 + (j 0).val) (hi1 : (i 1).val = (j 1).val) :
    pay x0 x1 x2 x3 j = Cert.Spec.proj (Cert.Spec.xc A0 A1 A2) A3 (i 0) (i 1) := by
  obtain ⟨r, e, rfl⟩ : ∃ r e, j = ix2 r e := ⟨j 0, j 1, eq_ix2 j⟩
  rw [hpay]
  unfold Cert.Spec.proj Cert.Spec.xc
  refine Finset.sum_congr rfl fun d _ => ?_
  rw [h0 (ix2 r d) (ix2 (i 0) d) hi0 rfl, h1 (ix2 r d) (ix2 (i 0) d) hi0 rfl, h2 (ix2 r d) (ix2 (i 0) d) hi0 rfl,
    h3 (ix2 d e) (ix2 d (i 1)) rfl hi1]

/-! ## The index maps over the four points -/

theorem hz : (![0, 0] : Fin 2 → Nat) = fun _ => 0 := funext fun a => by fin_cases a <;> rfl

/-- The printed index maps, decided over the grid: a row-block window is at block (t, 0), a whole-matrix window at
    block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

section
variable (V : (c : Dev nD) → (b : Ref sig .tc) → Buf (Elt Ideal) ((c : Thread nD τ).loc b))

/-! ## The input blocks as rows of the argument arrays -/

theorem iblk0_0_apply (c : Dev nD) (t : Fin cfg0.N) (y : S2048x256.Idx) (k : S8192x256.Idx)
    (hk0 : (k 0).val = t.val * 2048 + (y 0).val) (hk1 : (k 1).val = (y 1).val) :
    (iblk0 V c 0 t : Vec Ideal S2048x256 .f32) y = (V c main_arg0 : S8192x256.Idx → EReal) k := by
  have hi := (idx_facts t).1
  unfold iblk0
  rw [View.read_apply]
  show V c main_arg0 _ = V c main_arg0 _
  congr 1
  funext a
  apply Fin.ext
  match a with
  | ⟨0, _⟩ => show win0_0.index t 0 * 2048 + 1 * (y 0).val = (k 0).val; rw [hi.1, hk0]; omega
  | ⟨1, _⟩ => show win0_0.index t 1 * 256 + 1 * (y 1).val = (k 1).val; rw [hi.2, hk1]; omega

theorem iblk0_1_apply (c : Dev nD) (t : Fin cfg0.N) (y : S2048x256.Idx) (k : S8192x256.Idx)
    (hk0 : (k 0).val = t.val * 2048 + (y 0).val) (hk1 : (k 1).val = (y 1).val) :
    (iblk0 V c 1 t : Vec Ideal S2048x256 .f32) y = (V c main_arg1 : S8192x256.Idx → EReal) k := by
  have hi := (idx_facts t).2.1
  unfold iblk0
  rw [View.read_apply]
  show V c main_arg1 _ = V c main_arg1 _
  congr 1
  funext a
  apply Fin.ext
  match a with
  | ⟨0, _⟩ => show win0_1.index t 0 * 2048 + 1 * (y 0).val = (k 0).val; rw [hi.1, hk0]; omega
  | ⟨1, _⟩ => show win0_1.index t 1 * 256 + 1 * (y 1).val = (k 1).val; rw [hi.2, hk1]; omega

theorem iblk0_2_apply (c : Dev nD) (t : Fin cfg0.N) (y : S2048x256.Idx) (k : S8192x256.Idx)
    (hk0 : (k 0).val = t.val * 2048 + (y 0).val) (hk1 : (k 1).val = (y 1).val) :
    (iblk0 V c 2 t : Vec Ideal S2048x256 .f32) y = (V c main_arg2 : S8192x256.Idx → EReal) k := by
  have hi := (idx_facts t).2.2.1
  unfold iblk0
  rw [View.read_apply]
  show V c main_arg2 _ = V c main_arg2 _
  congr 1
  funext a
  apply Fin.ext
  match a with
  | ⟨0, _⟩ => show win0_2.index t 0 * 2048 + 1 * (y 0).val = (k 0).val; rw [hi.1, hk0]; omega
  | ⟨1, _⟩ => show win0_2.index t 1 * 256 + 1 * (y 1).val = (k 1).val; rw [hi.2, hk1]; omega

theorem iblk0_3_apply (c : Dev nD) (t : Fin cfg0.N) (y k : S256x256.Idx)
    (hk0 : (k 0).val = (y 0).val) (hk1 : (k 1).val = (y 1).val) :
    (iblk0 V c 3 t : Vec Ideal S256x256 .f32) y = (V c main_arg6 : S256x256.Idx → EReal) k := by
  have hi := (idx_facts t).2.2.2.1
  unfold iblk0
  rw [View.read_apply]
  show V c main_arg6 _ = V c main_arg6 _
  congr 1
  funext a
  apply Fin.ext
  match a with
  | ⟨0, _⟩ => show win0_3.index t 0 * 256 + 1 * (y 0).val = (k 0).val; rw [hi.1, hk0]; omega
  | ⟨1, _⟩ => show win0_3.index t 1 * 256 + 1 * (y 1).val = (k 1).val; rw [hi.2, hk1]; omega

theorem iblk0_4_apply (c : Dev nD) (t : Fin cfg0.N) (y k : S256x256.Idx)
    (hk0 : (k 0).val = (y 0).val) (hk1 : (k 1).val = (y 1).val) :
    (iblk0 V c 4 t : Vec Ideal S256x256 .f32) y = (V c main_arg7 : S256x256.Idx → EReal) k := by
  have hi := (idx_facts t).2.2.2.2.1
  unfold iblk0
  rw [View.read_apply]
  show V c main_arg7 _ = V c main_arg7 _
  congr 1
  funext a
  apply Fin.ext
  match a with
  | ⟨0, _⟩ => show win0_4.index t 0 * 256 + 1 * (y 0).val = (k 0).val; rw [hi.1, hk0]; omega
  | ⟨1, _⟩ => show win0_4.index t 1 * 256 + 1 * (y 1).val = (k 1).val; rw [hi.2, hk1]; omega

theorem iblk0_5_apply (c : Dev nD) (t : Fin cfg0.N) (y k : S256x256.Idx)
    (hk0 : (k 0).val = (y 0).val) (hk1 : (k 1).val = (y 1).val) :
    (iblk0 V c 5 t : Vec Ideal S256x256 .f32) y = (V c main_arg8 : S256x256.Idx → EReal) k := by
  have hi := (idx_facts t).2.2.2.2.2.1
  unfold iblk0
  rw [View.read_apply]
  show V c main_arg8 _ = V c main_arg8 _
  congr 1
  funext a
  apply Fin.ext
  match a with
  | ⟨0, _⟩ => show win0_5.index t 0 * 256 + 1 * (y 0).val = (k 0).val; rw [hi.1, hk0]; omega
  | ⟨1, _⟩ => show win0_5.index t 1 * 256 + 1 * (y 1).val = (k 1).val; rw [hi.2, hk1]; omega

/-! ## Output window 6 -/

/-- What the array ends holding: the projection by this window's weight matrix, index by index. -/
abbrev G6 (c : Dev nD) : S8192x256.Idx → EReal := fun i =>
  Cert.Spec.proj (Cert.Spec.xc (V c main_arg0) (V c main_arg1) (V c main_arg2)) (V c main_arg6) (i 0) (i 1)

/-- What point `t` writes back is block `t` of that function. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz]
  simp only [View.ld_unit_zero (S := S2048x256) hz, View.ld_unit_zero (S := S256x256) hz]
  funext j
  rw [View.read_apply]
  have hi := (idx_facts t).2.2.2.2.2.2.1
  show k0_pay2 (iblk0 V c 0 t) (iblk0 V c 1 t) (iblk0 V c 2 t) (iblk0 V c 3 t) j = G6 V c (((cfg0.win 6).blk t).view.emb j)
  exact point_apply k0_pay2 pay2_apply _ _ _ _ _ _ _ _ t.val (iblk0_0_apply V c t) (iblk0_1_apply V c t)
    (iblk0_2_apply V c t) (iblk0_3_apply V c t) j _
    (by show win0_6.index t 0 * 2048 + 1 * (j 0).val = t.val * 2048 + (j 0).val; rw [hi.1]; omega)
    (by show win0_6.index t 1 * 256 + 1 * (j 1).val = (j 1).val; rw [hi.2]; omega)

/-- An index of the array is in point `t`'s block iff each coordinate is in the block's range on its axis. -/
theorem mem_blk6 (t : Fin cfg0.N) (i : S8192x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v0_0).slice (win0_6.rect t)).set ↔ _
  rw [View.set_slice_whole, Rect.mem_set_unit]
  exact Iff.rfl

/-- Row `r` of the array is in the block of point `r / 2048`. -/
theorem cover6 (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 4 := N_0
  obtain ⟨t', ht'⟩ : ∃ t' : Fin cfg0.N, t'.val = (i 0).val / 2048 := ⟨⟨(i 0).val / 2048, by rw [hN]; omega⟩, rfl⟩
  have hx := (idx_facts t').2.2.2.2.2.2.1
  refine ⟨t', flush0_6 t', ?_⟩
  rw [mem_blk6]
  intro a
  match a with
  | ⟨0, _⟩ =>
    show win0_6.index t' 0 * 2048 ≤ (i 0).val ∧ (i 0).val < win0_6.index t' 0 * 2048 + 2048
    rw [hx.1, ht']; omega
  | ⟨1, _⟩ =>
    show win0_6.index t' 1 * 256 ≤ (i 1).val ∧ (i 1).val < win0_6.index t' 1 * 256 + 256
    rw [hx.2]; omega

/-- THE ARRAY after the region: the projection, at every index. -/
theorem final0_6 (c : Dev nD) : (dat0 V c).arrAt 6 cfg0.N
    = (fun i => Cert.Spec.proj (Cert.Spec.xc (V c main_arg0) (V c main_arg1) (V c main_arg2)) (V c main_arg6) (i 0) (i 1) :
        S8192x256.Idx → EReal) :=
  (dat0 V c).arrAt_eq_of_cover 6 (G6 V c) (fun t _ => flushed6_eq V c t) cover6

/-! ## Output window 7 -/

/-- What the array ends holding: the projection by this window's weight matrix, index by index. -/
abbrev G7 (c : Dev nD) : S8192x256.Idx → EReal := fun i =>
  Cert.Spec.proj (Cert.Spec.xc (V c main_arg0) (V c main_arg1) (V c main_arg2)) (V c main_arg7) (i 0) (i 1)

/-- What point `t` writes back is block `t` of that function. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz]
  simp only [View.ld_unit_zero (S := S2048x256) hz, View.ld_unit_zero (S := S256x256) hz]
  funext j
  rw [View.read_apply]
  have hi := (idx_facts t).2.2.2.2.2.2.2.1
  show k0_pay3 (iblk0 V c 0 t) (iblk0 V c 1 t) (iblk0 V c 2 t) (iblk0 V c 4 t) j = G7 V c (((cfg0.win 7).blk t).view.emb j)
  exact point_apply k0_pay3 pay3_apply _ _ _ _ _ _ _ _ t.val (iblk0_0_apply V c t) (iblk0_1_apply V c t)
    (iblk0_2_apply V c t) (iblk0_4_apply V c t) j _
    (by show win0_7.index t 0 * 2048 + 1 * (j 0).val = t.val * 2048 + (j 0).val; rw [hi.1]; omega)
    (by show win0_7.index t 1 * 256 + 1 * (j 1).val = (j 1).val; rw [hi.2]; omega)

/-- An index of the array is in point `t`'s block iff each coordinate is in the block's range on its axis. -/
theorem mem_blk7 (t : Fin cfg0.N) (i : S8192x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v0_1).slice (win0_7.rect t)).set ↔ _
  rw [View.set_slice_whole, Rect.mem_set_unit]
  exact Iff.rfl

/-- Row `r` of the array is in the block of point `r / 2048`. -/
theorem cover7 (i : S8192x256.Idx) :
    ∃ t : Fin cfg0.N, (cfg0.win 7).flush t = true ∧ i ∈ ((cfg0.win 7).blk t).view.set := by
  have hi0 : (i 0).val < 8192 := (i 0).isLt
  have hi1 : (i 1).val < 256 := (i 1).isLt
  have hN : cfg0.N = 4 := N_0
  obtain ⟨t', ht'⟩ : ∃ t' : Fin cfg0.N, t'.val = (i 0).val / 2048 := ⟨⟨(i 0).val / 2048, by rw [hN]; omega⟩, rfl⟩
  have hx := (idx_facts t').2.2.2.2.2.2.2.1
  refine ⟨t', flush0_7 t', ?_⟩
  rw [mem_blk7]
  intro a
  match a with
  | ⟨0, _⟩ =>
    show win0_7.index t' 0 * 2048 ≤ (i 0).val ∧ (i 0).val < win0_7.index t' 0 * 2048 + 2048
    rw [hx.1, ht']; omega
  | ⟨1, _⟩ =>
    show win0_7.index t' 1 * 256 ≤ (i 1).val ∧ (i 1).val < win0_7.index t' 1 * 256 + 256
    rw [hx.2]; omega

/-- THE ARRAY after the region: the projection, at every index. -/
theorem final0_7 (c : Dev nD) : (dat0 V c).arrAt 7 cfg0.N
    = (fun i => Cert.Spec.proj (Cert.Spec.xc (V c main_arg0) (V c main_arg1) (V c main_arg2)) (V c main_arg7) (i 0) (i 1) :
        S8192x256.Idx → EReal) :=
  (dat0 V c).arrAt_eq_of_cover 7 (G7 V c) (fun t _ => flushed7_eq V c t) cover7

/-! ## Output window 8 -/

/-- What the array ends holding: the projection by this window's weight matrix, index by index. -/
abbrev G8 (c : Dev nD) : S8192x256.Idx → EReal := fun i =>
  Cert.Spec.proj (Cert.Spec.xc (V c main_arg0) (V c main_arg1) (V c main_arg2)) (V c main_arg8) (i 0) (i 1)

/-- What point `t` writes back is block `t` of that function. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz]
  simp only [View.ld_unit_zero (S := S2048x256) hz, View.ld_unit_zero (S := S256x256) hz]
  funext j
  rw [View.read_apply]
  have hi := (idx_facts t).2.2.2.2.2.2.2.2
  show k0_pay4 (iblk0 V c 0 t) (iblk0 V c 1 t) (iblk0 V c 2 t) (iblk0 V c 5 t) j = G8 V c (((cfg0.win 8).blk t).view.emb j)
  exact point_apply k0_pay4 pay4_apply _ _ _ _ _ _ _ _ t.val (iblk0_0_apply V c t) (iblk0_1_apply V c t)
    (iblk0_2_apply V c t) (iblk0_5_apply V c t) j _
    (by show win0_8.index t 0 * 2048 + 1 * (j 0).val = t.val * 2048 + (j 0).val; rw [hi.1]; omega)
    (by show win0_8.index t 1 * 256 + 1 * (j 1).val = (j 1).val; rw [hi.2]; omega)

/-- An index of the array is in point `t`'s block iff each coordinate is in the block's range on its axis. -/
theorem mem_blk8 (t : Fin cfg0.N) (i : S8192x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v0_2).slice (win0_8.rect t)).set ↔ _
  rw [View.set_slice_whole, Rect.mem_set_unit]
  exact Iff.rfl

/-- Row `r` of the array is in the block of point `r / 2048`. -/
theorem cover8 (i : S8192x256.Idx) :
    ∃ t : Fin cfg0.N, (cfg0.win 8).flush t = true ∧ i ∈ ((cfg0.win 8).blk t).view.set := by
  have hi0 : (i 0).val < 8192 := (i 0).isLt
  have hi1 : (i 1).val < 256 := (i 1).isLt
  have hN : cfg0.N = 4 := N_0
  obtain ⟨t', ht'⟩ : ∃ t' : Fin cfg0.N, t'.val = (i 0).val / 2048 := ⟨⟨(i 0).val / 2048, by rw [hN]; omega⟩, rfl⟩
  have hx := (idx_facts t').2.2.2.2.2.2.2.2
  refine ⟨t', flush0_8 t', ?_⟩
  rw [mem_blk8]
  intro a
  match a with
  | ⟨0, _⟩ =>
    show win0_8.index t' 0 * 2048 ≤ (i 0).val ∧ (i 0).val < win0_8.index t' 0 * 2048 + 2048
    rw [hx.1, ht']; omega
  | ⟨1, _⟩ =>
    show win0_8.index t' 1 * 256 ≤ (i 1).val ∧ (i 1).val < win0_8.index t' 1 * 256 + 256
    rw [hx.2]; omega

/-- THE ARRAY after the region: the projection, at every index. -/
theorem final0_8 (c : Dev nD) : (dat0 V c).arrAt 8 cfg0.N
    = (fun i => Cert.Spec.proj (Cert.Spec.xc (V c main_arg0) (V c main_arg1) (V c main_arg2)) (V c main_arg8) (i 0) (i 1) :
        S8192x256.Idx → EReal) :=
  (dat0 V c).arrAt_eq_of_cover 8 (G8 V c) (fun t _ => flushed8_eq V c t) cover8

end

end Cert.Value0

end
-- ==== Proof.Finite.lean ====
/-
  From the printed precondition to real entries, and real entries through the specification's stages.

  The precondition is the conjunction, over the nine argument arrays, of "every entry's absolute value is below
  +∞". At the extended reals the absolute value of `x` is `max x (-x)`, the word `0x7F800000` is `⊤`, and the
  comparison is the order's: so each conjunct says every entry of its array is neither `⊥` nor `⊤`, a real.
  Sums, products and finite sums of reals are real, and the scale word `0x3D800000` is the real 1/16: so every
  biased feature, every projection entry and every score is real.
-/
import Mathlib
import Idealize.ShloMosaic.PureOps.Ideal
import Idealize.ShloMosaic.Lib.ReduceAll
import Idealize.ShloMosaic.Lib.ValueIdx
import Idealize.ShloMosaic.Lib.Affine
import proofs.«137085_j64776696758780_2_alg».proof.Pre_finite_inputs
import proofs.«137085_j64776696758780_2_alg».proof.Proof.LibERealFin
import proofs.«137085_j64776696758780_2_alg».proof.Proof.Spec
import proofs.«137085_j64776696758780_2_alg».proof.Proof.RealClosure

namespace Cert.Finite

open Idealize.ShloMosaic Cert.RealClosure

/-! ## The precondition -/

/-- The rank-0 shape has one index. -/
instance subsingleton_idx0 : Subsingleton Cert.Pre_finite_inputs.S_.Idx :=
  ⟨fun _ _ => funext fun d => d.elim0⟩

/-- The f32 word of +∞ is the top of the extended reals. -/
theorem ofBits_posInf : Ideal.ofBits .f32 0x7F800000#32 = (⊤ : EReal) := by
  simp [Ideal.ofBits, Ideal.ieee]

/-- An element whose absolute value compares below the word of +∞ is real. -/
theorem isReal_of_cmp {x : EReal}
    (h : Ideal.cmp .olt (max x (-x)) (Ideal.ofBits .f32 0x7F800000#32) = 1#1) : IsReal x := by
  rw [ofBits_posInf] at h
  refine isReal_of_abs_lt_top ?_
  by_contra hn
  simp [Ideal.cmp, hn] at h

/-- One conjunct of the precondition: when "all entries have absolute value below +∞" holds of an array,
    every entry is real. -/
theorem all_real {s : Shape} {axes : List (Fin s.rank)} (x : FVec Ideal s .f32)
    (bc : Cert.Pre_finite_inputs.S_.BroadcastsInDim s (![] : Fin 0 → Fin s.rank))
    (init : IVec Cert.Pre_finite_inputs.S_ 1) (hr : s.ReducesTo axes Cert.Pre_finite_inputs.S_)
    (hu : 0 < Cert.Pre_finite_inputs.S_.numel)
    (e : Host.reduce IntOp.andi
        (cmpf .olt (Host.absf x)
          (broadcastInDim s ![] bc (constant Cert.Pre_finite_inputs.S_ .f32 0x7F800000#32)))
        init hr hu ValueIdx.ix0 = 1#1) :
    ∀ i, IsReal (x i) := by
  intro i
  have hi := Host.reduce_andi_all _ init hr hu ValueIdx.ix0 e i
  exact isReal_of_cmp hi

section Pre
variable [Cert.Pre_finite_inputs.Facts]
open Cert.Pre_finite_inputs

/-- Under the printed precondition every entry of each of the nine argument arrays is real. -/
theorem isReal_of_pre (a0 a1 a2 : FVec Ideal S8192x256 .f32) (a3 a4 a5 : FVec Ideal S8192x8192 .f32)
    (a6 a7 a8 : FVec Ideal S256x256 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) := by
  have h0 := congrFun h ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7,
    all_real a8 _ _ _ _ e8⟩

end Pre

/-! ## The specification's stages -/

/-- The f32 word `0x3D800000` is the real 1/16. -/
theorem ofBits_scale : Ideal.ofBits .f32 0x3D800000#32 = (((1 : ℝ) / 16 : ℝ) : EReal) := by
  simp [Ideal.ofBits, Ideal.ieee, -EReal.coe_mul]; norm_num

theorem isReal_scale : IsReal (Ideal.ofBits .f32 0x3D800000#32) := ⟨_, ofBits_scale⟩

/-- The biased features of real arrays are real. -/
theorem isReal_xc (x pd p3 : Cert.Spec.Ind → EReal) (hx : ∀ i, IsReal (x i)) (hpd : ∀ i, IsReal (pd i))
    (hp3 : ∀ i, IsReal (p3 i)) (n : Fin 8192) (d : Fin 256) : IsReal (Cert.Spec.xc x pd p3 n d) :=
  ((hx _).add (hpd _)).add (hp3 _)

/-- A projection of real features by a real weight matrix is real. -/
theorem isReal_proj (f : Fin 8192 → Fin 256 → EReal) (Wt : Cert.Spec.Idd → EReal)
    (hf : ∀ n d, IsReal (f n d)) (hW : ∀ i, IsReal (Wt i)) (n : Fin 8192) (e : Fin 256) :
    IsReal (Cert.Spec.proj f Wt n e) :=
  isReal_sum_univ _ fun d => (hf n d).mul (hW _)

/-- A score of real queries, keys and biases is real. -/
theorem isReal_score (Q K : Fin 8192 → Fin 256 → EReal) (spd edge p3d : Cert.Spec.Inn → EReal)
    (hQ : ∀ n d, IsReal (Q n d)) (hK : ∀ n d, IsReal (K n d)) (hspd : ∀ i, IsReal (spd i))
    (hedge : ∀ i, IsReal (edge i)) (hp3d : ∀ i, IsReal (p3d i)) (n m : Fin 8192) :
    IsReal (Cert.Spec.score Q K spd edge p3d n m) :=
  ((((isReal_sum_univ _ fun e => (hQ n e).mul (hK m e)).mul isReal_scale).add (hspd _)).add (hedge _)).add
    (hp3d _)

/-- The scores of nine real arrays are real. -/
theorem isReal_scores (x pd p3s : Cert.Spec.Ind → EReal) (p3d spd edge : Cert.Spec.Inn → EReal)
    (Wq Wk : Cert.Spec.Idd → EReal) (hx : ∀ i, IsReal (x i)) (hpd : ∀ i, IsReal (pd i))
    (hp3s : ∀ i, IsReal (p3s i)) (hp3d : ∀ i, IsReal (p3d i)) (hspd : ∀ i, IsReal (spd i))
    (hedge : ∀ i, IsReal (edge i)) (hWq : ∀ i, IsReal (Wq i)) (hWk : ∀ i, IsReal (Wk i)) (n m : Fin 8192) :
    IsReal (Cert.Spec.scores x pd p3s p3d spd edge Wq Wk n m) :=
  isReal_score _ _ _ _ _ (isReal_proj _ _ (isReal_xc x pd p3s hx hpd hp3s) hWq)
    (isReal_proj _ _ (isReal_xc x pd p3s hx hpd hp3s) hWk) hspd hedge hp3d n m

/-- The values (the projection by `Wv`) of real arrays are real. -/
theorem isReal_values (x pd p3s : Cert.Spec.Ind → EReal) (Wv : Cert.Spec.Idd → EReal)
    (hx : ∀ i, IsReal (x i)) (hpd : ∀ i, IsReal (pd i)) (hp3s : ∀ i, IsReal (p3s i))
    (hWv : ∀ i, IsReal (Wv i)) (m : Fin 8192) (e : Fin 256) :
    IsReal (Cert.Spec.proj (Cert.Spec.xc x pd p3s) Wv m e) :=
  isReal_proj _ _ (isReal_xc x pd p3s hx hpd hp3s) hWv m e

end Cert.Finite
-- ==== Proof.Connect.lean ====
/-
  The arrays the attention region is entered with, identified with the specification's stages.

  The projection region leaves in its three outputs the projections of the biased features by the three weight
  matrices; it moves nothing else, so the three pairwise biases are still the launch memory's. Hence the score the
  attention region computes from what it finds is the specification's score of the nine argument arrays, the values
  it finds are the specification's values, and under the precondition (every argument entry is a real number) every
  such score and value is a real number. Last: once the attention region's output is known to be the softmax-weighted
  sum over the scores and values it finds, the result buffer holds the specification's result.
-/
import proofs.«137085_j64776696758780_2_alg».proof.Defs
import proofs.«137085_j64776696758780_2_alg».proof.Proof.KI.Run
import proofs.«137085_j64776696758780_2_alg».proof.Proof.KI.Defs1
import proofs.«137085_j64776696758780_2_alg».proof.Proof.Value0
import proofs.«137085_j64776696758780_2_alg».proof.Proof.Spec
import proofs.«137085_j64776696758780_2_alg».proof.Proof.Finite
import proofs.«137085_j64776696758780_2_alg».proof.Proof.Gen.Pre_finite_inputs

set_option maxRecDepth 16384

noncomputable section

namespace Cert.Connect

open Cert.KernelIdeal Cert.KernelIdeal.Gen Cert.KernelIdeal.Hand
open Idealize.ShloMosaic Idealize.ShloMosaic.TcCoe Idealize.ShloMosaic.ValueIdx Idealize.SL.Sem
open Cert.RealClosure

variable (m : (ℓ : Loc nD τ sig) → Buf (Elt Ideal) ℓ) (c : Dev nD)

/-! ## What the attention region finds -/

/-- The queries it finds are the biased features projected by the first weight matrix. -/
theorem aQ_eq : aQ (V2 m) c
    = (fun i => Cert.Spec.proj (Cert.Spec.xc (m ((c.tc : Thread nD τ).loc main_arg0)) (m ((c.tc : Thread nD τ).loc main_arg1)) (m ((c.tc : Thread nD τ).loc main_arg2))) (m ((c.tc : Thread nD τ).loc main_arg6)) (i 0) (i 1) : S8192x256.Idx → EReal) :=
  (W2_arr m c 6).trans (Cert.Value0.final0_6 (V1 m) c)

/-- The keys it finds are the biased features projected by the second weight matrix. -/
theorem aK_eq : aK (V2 m) c
    = (fun i => Cert.Spec.proj (Cert.Spec.xc (m ((c.tc : Thread nD τ).loc main_arg0)) (m ((c.tc : Thread nD τ).loc main_arg1)) (m ((c.tc : Thread nD τ).loc main_arg2))) (m ((c.tc : Thread nD τ).loc main_arg7)) (i 0) (i 1) : S8192x256.Idx → EReal) :=
  (W2_arr m c 7).trans (Cert.Value0.final0_7 (V1 m) c)

/-- The values it finds are the biased features projected by the third weight matrix. -/
theorem aV_eq : aV (V2 m) c
    = (fun i => Cert.Spec.proj (Cert.Spec.xc (m ((c.tc : Thread nD τ).loc main_arg0)) (m ((c.tc : Thread nD τ).loc main_arg1)) (m ((c.tc : Thread nD τ).loc main_arg2))) (m ((c.tc : Thread nD τ).loc main_arg8)) (i 0) (i 1) : S8192x256.Idx → EReal) :=
  (W2_arr m c 8).trans (Cert.Value0.final0_8 (V1 m) c)

/-- The three pairwise biases are the launch memory's: the projection region does not touch them. -/
theorem aSpd_eq : aSpd (V2 m) c = (m ((c.tc : Thread nD τ).loc main_arg4)) := W2_of_ne m c main_arg4 (by decide)
theorem aEdge_eq : aEdge (V2 m) c = (m ((c.tc : Thread nD τ).loc main_arg5)) := W2_of_ne m c main_arg5 (by decide)
theorem aP3d_eq : aP3d (V2 m) c = (m ((c.tc : Thread nD τ).loc main_arg3)) := W2_of_ne m c main_arg3 (by decide)

/-! ## Its scores and values are the specification's -/

/-- The scores, as a function of the query row and the key row. -/
theorem sc_fun : sc (V2 m) c
    = Cert.Spec.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext n m'
  unfold sc Cert.Spec.scores
  have hQ : (fun (n : Fin 8192) (e : Fin 256) => aQ (V2 m) c (ix2 n e))
      = Cert.Spec.proj (Cert.Spec.xc (m ((c.tc : Thread nD τ).loc main_arg0)) (m ((c.tc : Thread nD τ).loc main_arg1)) (m ((c.tc : Thread nD τ).loc main_arg2))) (m ((c.tc : Thread nD τ).loc main_arg6)) :=
    funext fun n => funext fun e => congrFun (aQ_eq m c) (ix2 n e)
  have hK : (fun (n : Fin 8192) (e : Fin 256) => aK (V2 m) c (ix2 n e))
      = Cert.Spec.proj (Cert.Spec.xc (m ((c.tc : Thread nD τ).loc main_arg0)) (m ((c.tc : Thread nD τ).loc main_arg1)) (m ((c.tc : Thread nD τ).loc main_arg2))) (m ((c.tc : Thread nD τ).loc main_arg7)) :=
    funext fun n => funext fun e => congrFun (aK_eq m c) (ix2 n e)
  rw [hQ, hK, aSpd_eq, aEdge_eq, aP3d_eq]

theorem sc_eq (n m' : Fin 8192) : sc (V2 m) c n m'
    = Cert.Spec.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) n m' :=
  congrFun (congrFun (sc_fun m c) n) m'

/-- The values, as a function of the key row and the column. -/
theorem vv_fun : vv (V2 m) c = Cert.Spec.proj (Cert.Spec.xc (m ((c.tc : Thread nD τ).loc main_arg0)) (m ((c.tc : Thread nD τ).loc main_arg1)) (m ((c.tc : Thread nD τ).loc main_arg2))) (m ((c.tc : Thread nD τ).loc main_arg8)) :=
  funext fun m' => funext fun e => congrFun (aV_eq m c) (ix2 m' e)

theorem vv_eq (m' : Fin 8192) (e : Fin 256) : vv (V2 m) c m' e
    = Cert.Spec.proj (Cert.Spec.xc (m ((c.tc : Thread nD τ).loc main_arg0)) (m ((c.tc : Thread nD τ).loc main_arg1)) (m ((c.tc : Thread nD τ).loc main_arg2))) (m ((c.tc : Thread nD τ).loc main_arg8)) m' e :=
  congrFun (congrFun (vv_fun m c) m') e

/-! ## Under the precondition they are real numbers -/

theorem real_sc (hpre : Cert.Pre_KernelIdeal (hPre_finite_inputs := Cert.Pre_finite_inputs.Gen.facts) m) :
    ∀ n m', IsReal (sc (V2 m) c n m') := by
  intro n m'
  obtain ⟨h0, h1, h2, h3, h4, h5, h6, h7, h8⟩ := Cert.Finite.isReal_of_pre _ _ _ _ _ _ _ _ _ (hpre c)
  rw [sc_eq]
  exact Cert.Finite.isReal_scores _ _ _ _ _ _ _ _ h0 h1 h2 h3 h4 h5 h6 h7 n m'

theorem real_vv (hpre : Cert.Pre_KernelIdeal (hPre_finite_inputs := Cert.Pre_finite_inputs.Gen.facts) m) :
    ∀ m' e, IsReal (vv (V2 m) c m' e) := by
  intro m' e
  obtain ⟨h0, h1, h2, h3, h4, h5, h6, h7, h8⟩ := Cert.Finite.isReal_of_pre _ _ _ _ _ _ _ _ _ (hpre c)
  rw [vv_eq]
  exact Cert.Finite.isReal_values _ _ _ _ h0 h1 h2 h8 m' e

/-! ## The result buffer -/

/-- Once the attention region's output array is the softmax-weighted sum over the scores and values the region finds,
    the result buffer holds the specification's result of the nine argument arrays. -/
theorem kernel_value_of
    (hfinal : (dat1 (V2 m) c).arrAt 6 cfg1.N
      = (fun i => Cert.Spec.out (sc (V2 m) c) (vv (V2 m) c) (i 0) (i 1) : S8192x256.Idx → EReal)) :
    W4 (F := Ideal) m c (Proc.devRef .tc main_v1)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine ((W4_arr m c 6).trans hfinal).trans ?_
  rw [sc_fun, vv_fun]
  rfl

end Cert.Connect

end
-- ==== Proof.KI.KernelValue.lean ====
/-
  The kernel's result, as a function of its nine arguments. The attention region's write-backs leave, in every block of
  the result, numerator over denominator of the online-softmax recurrence after all eight key tiles; for real-valued
  scores and values that quotient is the softmax-weighted sum of the values; the arrays the region finds are the
  projections the first region wrote and the three biases as launched; and under the precondition every entry is real.
-/
import proofs.«137085_j64776696758780_2_alg».proof.Proof.KI.Induct1
import proofs.«137085_j64776696758780_2_alg».proof.Proof.Final1
import proofs.«137085_j64776696758780_2_alg».proof.Proof.Connect

noncomputable section

namespace Cert.KernelIdeal.Hand

open Cert.KernelIdeal Cert.KernelIdeal.Gen
open Idealize.ShloMosaic Idealize.ShloMosaic.TcCoe Idealize.SL.Sem

theorem kernel_value : ∀ (m : (ℓ : Loc Cert.KernelIdeal.nD Cert.KernelIdeal.τ Cert.KernelIdeal.sig) → Buf (Elt Ideal) ℓ),
    Cert.Pre_KernelIdeal (hPre_finite_inputs := Cert.Pre_finite_inputs.Gen.facts) m →
    ∀ c : Dev Cert.KernelIdeal.nD,
      Cert.KernelIdeal.Hand.W4 (F := Ideal) m c (Proc.devRef .tc Cert.KernelIdeal.main_v1)
        = Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8)) :=
  fun m hpre c => Cert.Connect.kernel_value_of m c
    (Cert.Final1.final1_6 (V2 m) c (Cert.Connect.real_sc m c hpre) (Cert.Connect.real_vv m c hpre) (carried (V2 m) c))

end Cert.KernelIdeal.Hand

end
-- ==== Proof.lean ====
/-
  A two-kernel attention layer against its plain reference, over the extended reals.

  The kernel first projects x + phi_degree + phi_3d_sum by Wq, Wk, Wv in row blocks of 2048, then runs attention over a
  grid of 16 query tiles by 8 key tiles: per query tile it keeps a running row maximum m, a running denominator l and a
  running numerator acc, resets them to (-inf, 0, 0) at the first key tile, folds each key tile in by
      m' = max m (max_k s_k),  l' = exp(m - m') l + sum_k exp(s_k - m'),  acc' = exp(m - m') acc + sum_k exp(s_k - m') v_k,
  where s = (Q K^T) / 16 + phi_spd + phi_edge + phi_3d, and stores acc / l after the last key tile. The reference forms the
  same scores for all 8192 keys at once, subtracts the row maximum, exponentiates, divides by the row sum and multiplies
  by V. With every input finite all scores and values are real numbers, the rescalings exp(m - m') telescope, and both
  programs give sum_j exp(s_j - M) v_j / sum_j exp(s_j - M) for every real shift M: the same extended real at every index.

  The frames (each program runs to the end, faults nowhere, leaves its arguments unchanged) come from running both kernel
  bodies once per control case and carrying the three running buffers through the grid as an invariant; the bf16 round
  trip the idealization removed is the identity on the extended reals.
-/
import proofs.«137085_j64776696758780_2_alg».proof.Defs
import proofs.«137085_j64776696758780_2_alg».proof.Proof.Assemble
import proofs.«137085_j64776696758780_2_alg».proof.Proof.KI.KernelValue

noncomputable section

namespace Cert.Proof

theorem claim : Cert.Claim := Cert.Assemble.claim_of Cert.KernelIdeal.Hand.kernel_value

end Cert.Proof

end
